-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v91) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x3200000 : Shape := ⟨2, ![2, 3200000]⟩
abbrev S128x64 : Shape := ⟨2, ![128, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S1 .f32) (main_v13 : IVec S_ 1) (main_v16 : IVec S64x1 1) : IVec S_ 1 :=
  let main_c_5 : IVec S_ 1 := constantI S_ 1 1#1
  let main_v17 : IVec S_ 1 := (fun x v => Host.reduce IntOp.andi x v reducesTo_S64x1_S_d0_1 h_S_) main_v16 main_c_5
  let main_v18 : IVec S_ 1 := andi main_v13 main_v17
  let main_v19 : FVec F S1 .f32 := Host.absf main_arg5
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : FVec F S100000x128 .f32) (main_arg1 : IVec S2x3200000 32) (main_arg2 : FVec F S128x64 .f32) (main_arg3 : FVec F S64 .f32) (main_arg4 : FVec F S64x1 .f32) (main_arg5 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x1 .f32 := Host.absf main_arg4
  let main_cst_4 : FVec F S_ .f32 := constant S_ .f32 0x7F800000#32
  let main_v15 : FVec F S64x1 .f32 := broadcastInDim S64x1 ![] bcast_S_S64x1 main_cst_4
  let main_v16 : IVec S64x1 1 := cmpf .olt main_v14 main_v15
  fn_part1 (F := F) main_arg5 main_v13 main_v16
-- ==== Kernel.lean ====
abbrev S100000x128 : Shape := ⟨2, ![100000, 128]⟩
abbrev S2x3200000 : Shape := ⟨2, ![2, 3200000]⟩
abbrev S128x64 : Shape := ⟨2, ![128, 64]⟩
abbrev S64 : Shape := ⟨1, ![64]⟩
abbrev S64x1 : Shape := ⟨2, ![64, 1]⟩
abbrev S1 : Shape := ⟨1, ![1]⟩
abbrev S1x3200000 : Shape := ⟨2, ![1, 3200000]⟩
abbrev S3200000 : Shape := ⟨1, ![3200000]⟩
abbrev S100000 : Shape := ⟨1, ![100000]⟩
abbrev S3300000 : Shape := ⟨1, ![3300000]⟩
abbrev S_ : Shape := ⟨0, ![]⟩
abbrev S3300000x1 : Shape := ⟨2, ![3300000, 1]⟩
abbrev S100000x64 : Shape := ⟨2, ![100000, 64]⟩
abbrev S10000x128 : Shape := ⟨2, ![10000, 128]⟩
abbrev S10000x64 : Shape := ⟨2, ![10000, 64]⟩
abbrev S3300000x64 : Shape := ⟨2, ![3300000, 64]⟩
abbrev S1x64 : Shape := ⟨2, ![1, 64]⟩
abbrev S100000x1 : Shape := ⟨2, ![100000, 1]⟩
abbrev S10000x1 : Shape := ⟨2, ![10000, 1]⟩
abbrev S1x1 : Shape := ⟨2, ![1, 1]⟩

abbrev nBuf : Space → Nat
  | .hbm => 90
  | .vmem => 10
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S128x64, .f32⟩
  | .hbm, ⟨3, _⟩ => ⟨S64, .f32⟩
  | .hbm, ⟨4, _⟩ => ⟨S64x1, .f32⟩
  | .hbm, ⟨5, _⟩ => ⟨S1, .f32⟩
  | .hbm, ⟨6, _⟩ => ⟨S1x3200000, .i32⟩
  | .hbm, ⟨7, _⟩ => ⟨S3200000, .i32⟩
  | .hbm, ⟨8, _⟩ => ⟨S1x3200000, .i32⟩
  | .hbm, ⟨9, _⟩ => ⟨S3200000, .i32⟩
  | .hbm, ⟨10, _⟩ => ⟨S100000, .i32⟩
  | .hbm, ⟨11, _⟩ => ⟨S3300000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S3300000, .i32⟩
  | .hbm, ⟨31, _⟩ => ⟨S3300000, .i1⟩
  | .hbm, ⟨32, _⟩ => ⟨S_, .i32⟩
  | .hbm, ⟨33, _⟩ => ⟨S3300000, .i32⟩
  | .hbm, ⟨34, _⟩ => ⟨S3300000, .i32⟩
  | .hbm, ⟨35, _⟩ => ⟨S3300000, .i32⟩
  | .hbm, ⟨36, _⟩ => ⟨S3300000x1, .i32⟩
  | .hbm, ⟨37, _⟩ => ⟨S3300000, .f32⟩
  | .hbm, ⟨38, _⟩ => ⟨S_, .i32⟩
  | .hbm, ⟨39, _⟩ => ⟨S3300000, .i32⟩
  | .hbm, ⟨40, _⟩ => ⟨S3300000, .i1⟩
  | .hbm, ⟨41, _⟩ => ⟨S_, .i32⟩
  | .hbm, ⟨42, _⟩ => ⟨S3300000, .i32⟩
  | .hbm, ⟨43, _⟩ => ⟨S3300000, .i32⟩
  | .hbm, ⟨44, _⟩ => ⟨S3300000, .i32⟩
  | .hbm, ⟨45, _⟩ => ⟨S3300000x1, .i32⟩
  | .hbm, ⟨46, _⟩ => ⟨S3300000, .f32⟩
  | .hbm, ⟨47, _⟩ => ⟨S3300000, .f32⟩
  | .hbm, ⟨48, _⟩ => ⟨S100000x64, .f32⟩
  | .hbm, ⟨49, _⟩ => ⟨S_, .i32⟩
  | .hbm, ⟨50, _⟩ => ⟨S3300000, .i32⟩
  | .hbm, ⟨51, _⟩ => ⟨S3300000, .i1⟩
  | .hbm, ⟨52, _⟩ => ⟨S_, .i32⟩
  | .hbm, ⟨53, _⟩ => ⟨S3300000, .i32⟩
  | .hbm, ⟨54, _⟩ => ⟨S3300000, .i32⟩
  | .hbm, ⟨55, _⟩ => ⟨S3300000, .i32⟩
  | .hbm, ⟨56, _⟩ => ⟨S3300000x1, .i32⟩
  | .hbm, ⟨57, _⟩ => ⟨S3300000x64, .f32⟩
  | .hbm, ⟨58, _⟩ => ⟨S3300000x1, .f32⟩
  | .hbm, ⟨59, _⟩ => ⟨S3300000x64, .f32⟩
  | .hbm, ⟨60, _⟩ => ⟨S3300000x64, .f32⟩
  | .hbm, ⟨61, _⟩ => ⟨S_, .f32⟩
  | .hbm, ⟨62, _⟩ => ⟨S100000x64, .f32⟩
  | .hbm, ⟨63, _⟩ => ⟨S3300000x1, .i32⟩
  | .hbm, ⟨64, _⟩ => ⟨S100000x64, .f32⟩
  | .hbm, ⟨65, _⟩ => ⟨S1x64, .f32⟩
  | .hbm, ⟨66, _⟩ => ⟨S100000x64, .f32⟩
  | .hbm, ⟨67, _⟩ => ⟨S100000x64, .f32⟩
  | .hbm, ⟨68, _⟩ => ⟨S_, .f32⟩
  | .hbm, ⟨69, _⟩ => ⟨S100000x64, .f32⟩
  | .hbm, ⟨70, _⟩ => ⟨S100000x64, .f32⟩
  | .hbm, ⟨71, _⟩ => ⟨S100000x1, .f32⟩
  | .hbm, ⟨72, _⟩ => ⟨S_, .i32⟩
  | .hbm, ⟨73, _⟩ => ⟨S3300000, .i32⟩
  | .hbm, ⟨74, _⟩ => ⟨S3300000, .i1⟩
  | .hbm, ⟨75, _⟩ => ⟨S_, .i32⟩
  | .hbm, ⟨76, _⟩ => ⟨S3300000, .i32⟩
  | .hbm, ⟨77, _⟩ => ⟨S3300000, .i32⟩
  | .hbm, ⟨78, _⟩ => ⟨S3300000, .i32⟩
  | .hbm, ⟨79, _⟩ => ⟨S3300000x1, .i32⟩
  | .hbm, ⟨80, _⟩ => ⟨S3300000x1, .f32⟩
  | .hbm, ⟨81, _⟩ => ⟨S3300000x1, .f32⟩
  | .hbm, ⟨82, _⟩ => ⟨S3300000x1, .f32⟩
  | .hbm, ⟨83, _⟩ => ⟨S_, .f32⟩
  | .hbm, ⟨84, _⟩ => ⟨S100000x1, .f32⟩
  | .hbm, ⟨85, _⟩ => ⟨S3300000x1, .i32⟩
  | .hbm, ⟨86, _⟩ => ⟨S100000x1, .f32⟩
  | .hbm, ⟨87, _⟩ => ⟨S1x1, .f32⟩
  | .hbm, ⟨88, _⟩ => ⟨S100000x1, .f32⟩
  | .hbm, ⟨89, _⟩ => ⟨S100000x1, .f32⟩
  | .local _ .vmem, ⟨0, _⟩ => ⟨S10000x128, .f32⟩
  | .local _ .vmem, ⟨1, _⟩ => ⟨S10000x128, .f32⟩
  | .local _ .vmem, ⟨2, _⟩ => ⟨S128x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S64x1, .f32⟩
  | .local _ .vmem, ⟨8, _⟩ => ⟨S10000x1, .f32⟩
  | .local _ .vmem, ⟨9, _⟩ => ⟨S10000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_4 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_c_5 : Ref sig .tc := ⟨.hbm, 38, rfl⟩
abbrev main_v23 : Ref sig .tc := ⟨.hbm, 39, rfl⟩
abbrev main_v24 : Ref sig .tc := ⟨.hbm, 40, rfl⟩
abbrev main_c_6 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_c_7 : Ref sig .tc := ⟨.hbm, 49, rfl⟩
abbrev main_v32 : Ref sig .tc := ⟨.hbm, 50, rfl⟩
abbrev main_v33 : Ref sig .tc := ⟨.hbm, 51, rfl⟩
abbrev main_c_8 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_9 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_call1_cst : Ref sig .tc := ⟨.hbm, 68, rfl⟩
abbrev main_call1_v0 : Ref sig .tc := ⟨.hbm, 69, rfl⟩
abbrev main_v48 : Ref sig .tc := ⟨.hbm, 70, rfl⟩
abbrev main_v49 : Ref sig .tc := ⟨.hbm, 71, rfl⟩
abbrev main_c_10 : Ref sig .tc := ⟨.hbm, 72, rfl⟩
abbrev main_v50 : Ref sig .tc := ⟨.hbm, 73, rfl⟩
abbrev main_v51 : Ref sig .tc := ⟨.hbm, 74, rfl⟩
abbrev main_c_11 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_12 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  concatenates_S3200000_S100000_S3300000_d0 : Shape.Concatenates [S3200000, S100000] S3300000 0
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  shapeCasts_S10000x64_S10000x64 : S10000x64.ShapeCasts S10000x64
  inb_S64x1_S64x1_0_0 : ∀ a, (![0, 0] : Fin 2 → Nat) a + S64x1.size a ≤ S64x1.size a
  h_S64x1 : 0 < S64x1.numel
  inb_S10000x1_S10000x1_0_0 : ∀ a, (![0, 0] : Fin 2 → Nat) a + S10000x1.size a ≤ S10000x1.size a
  h_S10000x1 : 0 < S10000x1.numel
  bcast_S_S100000x1 : S_.BroadcastsInDim S100000x1 (![] : Fin 0 → Fin S100000x1.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S10000x128_S128x64_S10000x64_1_0_0_1_n_n_wf : DotDims.WF S10000x128 S128x64 S10000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S10000x64_S64x1_S10000x1_1_0_0_1_n_n_wf : DotDims.WF S10000x64 S64x1 S10000x1 [1] [0] [0] [1] [] []
  gather_S100000x1_S3300000x1_S3300000x1_1_0_n_n_0_1_11_wf : GatherDims.WF S100000x1 S3300000x1 S3300000x1 [1] [0] [] [0] [] 1 ![1, 1]
  scatter_S100000x1_S3300000x1_S3300000x1_1_0_0_1_wf : ScatterDims.WF S100000x1 S3300000x1 S3300000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x1.size a ≤ S64x1.size a
  hwx1_1 : ∀ i : grid1.Coords, EltTy.bits .f32 = 32 ∨ (Rect.block (s := S64x1) S64x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x1.size a ≤ S100000x1.size a
  hwx1_2 : ∀ i : grid1.Coords, EltTy.bits .f32 = 32 ∨ (Rect.block (s := S100000x1) S10000x1.size (cc1_transform_2 i) (hinb1_2 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S10000x64_S64x1_S10000x1_1_0_0_1_n_n : DotDims S10000x64 S64x1 S10000x1 where
  lhsContracting := [1]
  rhsContracting := [0]
  lhsNonContracting := [0]
  rhsNonContracting := [1]
  lhsBatch := []
  rhsBatch := []
  wf := dot_S10000x64_S64x1_S10000x1_1_0_0_1_n_n_wf
def gather_S100000x1_S3300000x1_S3300000x1_1_0_n_n_0_1_11 : GatherDims S100000x1 S3300000x1 S3300000x1 where
  offsetDims := [1]
  collapsedSliceDims := [0]
  operandBatchingDims := []
  startIndicesBatchingDims := []
  startIndexMap := [0]
  indexVectorDim := 1
  sliceSizes := ![1, 1]
  wf := gather_S100000x1_S3300000x1_S3300000x1_1_0_n_n_0_1_11_wf
def scatter_S100000x1_S3300000x1_S3300000x1_1_0_0_1 : ScatterDims S100000x1 S3300000x1 S3300000x1 where
  updateWindowDims := [1]
  insertedWindowDims := [0]
  scatterDimsToOperandDims := [0]
  indexVectorDim := 1
  wf := scatter_S100000x1_S3300000x1_S3300000x1_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v48) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S64x1.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v49) S10000x1.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x3200000 : Shape := ⟨2, ![2, 3200000]⟩
abbrev S128x64 : Shape := ⟨2, ![128, 64]⟩
abbrev S64 : Shape := ⟨1, ![64]⟩
abbrev S64x1 : Shape := ⟨2, ![64, 1]⟩
abbrev S1 : Shape := ⟨1, ![1]⟩
abbrev S1x3200000 : Shape := ⟨2, ![1, 3200000]⟩
abbrev S3200000 : Shape := ⟨1, ![3200000]⟩
abbrev S100000 : Shape := ⟨1, ![100000]⟩
abbrev S3300000 : Shape := ⟨1, ![3300000]⟩
abbrev S_ : Shape := ⟨0, ![]⟩
abbrev S3300000x1 : Shape := ⟨2, ![3300000, 1]⟩
abbrev S100000x64 : Shape := ⟨2, ![100000, 64]⟩
abbrev S3300000x64 : Shape := ⟨2, ![3300000, 64]⟩
abbrev S1x64 : Shape := ⟨2, ![1, 64]⟩
abbrev S100000x1 : Shape := ⟨2, ![100000, 1]⟩
abbrev S1x1 : Shape := ⟨2, ![1, 1]⟩

abbrev nBuf : Space → Nat
  | .hbm => 128
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S128x64, .f32⟩
  | .hbm, ⟨3, _⟩ => ⟨S64, .f32⟩
  | .hbm, ⟨4, _⟩ => ⟨S64x1, .f32⟩
  | .hbm, ⟨5, _⟩ => ⟨S1, .f32⟩
  | .hbm, ⟨6, _⟩ => ⟨S1x3200000, .i32⟩
  | .hbm, ⟨7, _⟩ => ⟨S3200000, .i32⟩
  | .hbm, ⟨8, _⟩ => ⟨S1x3200000, .i32⟩
  | .hbm, ⟨9, _⟩ => ⟨S3200000, .i32⟩
  | .hbm, ⟨10, _⟩ => ⟨S100000, .i32⟩
  | .hbm, ⟨11, _⟩ => ⟨S3300000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S3300000, .i32⟩
  | .hbm, ⟨31, _⟩ => ⟨S3300000, .i1⟩
  | .hbm, ⟨32, _⟩ => ⟨S_, .i32⟩
  | .hbm, ⟨33, _⟩ => ⟨S3300000, .i32⟩
  | .hbm, ⟨34, _⟩ => ⟨S3300000, .i32⟩
  | .hbm, ⟨35, _⟩ => ⟨S3300000, .i32⟩
  | .hbm, ⟨36, _⟩ => ⟨S3300000x1, .i32⟩
  | .hbm, ⟨37, _⟩ => ⟨S3300000, .f32⟩
  | .hbm, ⟨38, _⟩ => ⟨S_, .i32⟩
  | .hbm, ⟨39, _⟩ => ⟨S3300000, .i32⟩
  | .hbm, ⟨40, _⟩ => ⟨S3300000, .i1⟩
  | .hbm, ⟨41, _⟩ => ⟨S_, .i32⟩
  | .hbm, ⟨42, _⟩ => ⟨S3300000, .i32⟩
  | .hbm, ⟨43, _⟩ => ⟨S3300000, .i32⟩
  | .hbm, ⟨44, _⟩ => ⟨S3300000, .i32⟩
  | .hbm, ⟨45, _⟩ => ⟨S3300000x1, .i32⟩
  | .hbm, ⟨46, _⟩ => ⟨S3300000, .f32⟩
  | .hbm, ⟨47, _⟩ => ⟨S3300000, .f32⟩
  | .hbm, ⟨48, _⟩ => ⟨S100000x64, .f32⟩
  | .hbm, ⟨49, _⟩ => ⟨S_, .i32⟩
  | .hbm, ⟨50, _⟩ => ⟨S3300000, .i32⟩
  | .hbm, ⟨51, _⟩ => ⟨S3300000, .i1⟩
  | .hbm, ⟨52, _⟩ => ⟨S_, .i32⟩
  | .hbm, ⟨53, _⟩ => ⟨S3300000, .i32⟩
  | .hbm, ⟨54, _⟩ => ⟨S3300000, .i32⟩
  | .hbm, ⟨55, _⟩ => ⟨S3300000, .i32⟩
  | .hbm, ⟨56, _⟩ => ⟨S3300000x1, .i32⟩
  | .hbm, ⟨57, _⟩ => ⟨S3300000x64, .f32⟩
  | .hbm, ⟨58, _⟩ => ⟨S3300000x1, .f32⟩
  | .hbm, ⟨59, _⟩ => ⟨S3300000x64, .f32⟩
  | .hbm, ⟨60, _⟩ => ⟨S3300000x64, .f32⟩
  | .hbm, ⟨61, _⟩ => ⟨S_, .f32⟩
  | .hbm, ⟨62, _⟩ => ⟨S100000x64, .f32⟩
  | .hbm, ⟨63, _⟩ => ⟨S3300000x1, .i32⟩
  | .hbm, ⟨64, _⟩ => ⟨S100000x64, .f32⟩
  | .hbm, ⟨65, _⟩ => ⟨S1x64, .f32⟩
  | .hbm, ⟨66, _⟩ => ⟨S100000x64, .f32⟩
  | .hbm, ⟨67, _⟩ => ⟨S100000x64, .f32⟩
  | .hbm, ⟨68, _⟩ => ⟨S_, .f32⟩
  | .hbm, ⟨69, _⟩ => ⟨S100000x64, .f32⟩
  | .hbm, ⟨70, _⟩ => ⟨S100000x64, .f32⟩
  | .hbm, ⟨71, _⟩ => ⟨S100000, .i32⟩
  | .hbm, ⟨72, _⟩ => ⟨S3300000, .i32⟩
  | .hbm, ⟨73, _⟩ => ⟨S3300000, .i32⟩
  | .hbm, ⟨74, _⟩ => ⟨S_, .f32⟩
  | .hbm, ⟨75, _⟩ => ⟨S3300000, .f32⟩
  | .hbm, ⟨76, _⟩ => ⟨S_, .f32⟩
  | .hbm, ⟨77, _⟩ => ⟨S100000, .f32⟩
  | .hbm, ⟨78, _⟩ => ⟨S3300000x1, .i32⟩
  | .hbm, ⟨79, _⟩ => ⟨S100000, .f32⟩
  | .hbm, ⟨80, _⟩ => ⟨S_, .f32⟩
  | .hbm, ⟨81, _⟩ => ⟨S100000, .f32⟩
  | .hbm, ⟨82, _⟩ => ⟨S100000, .i1⟩
  | .hbm, ⟨83, _⟩ => ⟨S_, .f32⟩
  | .hbm, ⟨84, _⟩ => ⟨S100000, .f32⟩
  | .hbm, ⟨85, _⟩ => ⟨S100000, .f32⟩
  | .hbm, ⟨86, _⟩ => ⟨S_, .f32⟩
  | .hbm, ⟨87, _⟩ => ⟨S_, .f32⟩
  | .hbm, ⟨88, _⟩ => ⟨S100000, .f32⟩
  | .hbm, ⟨89, _⟩ => ⟨S100000, .f32⟩
  | .hbm, ⟨90, _⟩ => ⟨S_, .i32⟩
  | .hbm, ⟨91, _⟩ => ⟨S3300000, .i32⟩
  | .hbm, ⟨92, _⟩ => ⟨S3300000, .i1⟩
  | .hbm, ⟨93, _⟩ => ⟨S_, .i32⟩
  | .hbm, ⟨94, _⟩ => ⟨S3300000, .i32⟩
  | .hbm, ⟨95, _⟩ => ⟨S3300000, .i32⟩
  | .hbm, ⟨96, _⟩ => ⟨S3300000, .i32⟩
  | .hbm, ⟨97, _⟩ => ⟨S3300000x1, .i32⟩
  | .hbm, ⟨98, _⟩ => ⟨S3300000, .f32⟩
  | .hbm, ⟨99, _⟩ => ⟨S_, .i32⟩
  | .hbm, ⟨100, _⟩ => ⟨S3300000, .i32⟩
  | .hbm, ⟨101, _⟩ => ⟨S3300000, .i1⟩
  | .hbm, ⟨102, _⟩ => ⟨S_, .i32⟩
  | .hbm, ⟨103, _⟩ => ⟨S3300000, .i32⟩
  | .hbm, ⟨104, _⟩ => ⟨S3300000, .i32⟩
  | .hbm, ⟨105, _⟩ => ⟨S3300000, .i32⟩
  | .hbm, ⟨106, _⟩ => ⟨S3300000x1, .i32⟩
  | .hbm, ⟨107, _⟩ => ⟨S3300000, .f32⟩
  | .hbm, ⟨108, _⟩ => ⟨S3300000, .f32⟩
  | .hbm, ⟨109, _⟩ => ⟨S100000x1, .f32⟩
  | .hbm, ⟨110, _⟩ => ⟨S_, .i32⟩
  | .hbm, ⟨111, _⟩ => ⟨S3300000, .i32⟩
  | .hbm, ⟨112, _⟩ => ⟨S3300000, .i1⟩
  | .hbm, ⟨113, _⟩ => ⟨S_, .i32⟩
  | .hbm, ⟨114, _⟩ => ⟨S3300000, .i32⟩
  | .hbm, ⟨115, _⟩ => ⟨S3300000, .i32⟩
  | .hbm, ⟨116, _⟩ => ⟨S3300000, .i32⟩
  | .hbm, ⟨117, _⟩ => ⟨S3300000x1, .i32⟩
  | .hbm, ⟨118, _⟩ => ⟨S3300000x1, .f32⟩
  | .hbm, ⟨119, _⟩ => ⟨S3300000x1, .f32⟩
  | .hbm, ⟨120, _⟩ => ⟨S3300000x1, .f32⟩
  | .hbm, ⟨121, _⟩ => ⟨S_, .f32⟩
  | .hbm, ⟨122, _⟩ => ⟨S100000x1, .f32⟩
  | .hbm, ⟨123, _⟩ => ⟨S3300000x1, .i32⟩
  | .hbm, ⟨124, _⟩ => ⟨S100000x1, .f32⟩
  | .hbm, ⟨125, _⟩ => ⟨S1x1, .f32⟩
  | .hbm, ⟨126, _⟩ => ⟨S100000x1, .f32⟩
  | .hbm, ⟨127, _⟩ => ⟨S100000x1, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_4 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_c_5 : Ref sig .tc := ⟨.hbm, 38, rfl⟩
abbrev main_v23 : Ref sig .tc := ⟨.hbm, 39, rfl⟩
abbrev main_v24 : Ref sig .tc := ⟨.hbm, 40, rfl⟩
abbrev main_c_6 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_c_7 : Ref sig .tc := ⟨.hbm, 49, rfl⟩
abbrev main_v32 : Ref sig .tc := ⟨.hbm, 50, rfl⟩
abbrev main_v33 : Ref sig .tc := ⟨.hbm, 51, rfl⟩
abbrev main_c_8 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_9 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_call1_cst : Ref sig .tc := ⟨.hbm, 68, rfl⟩
abbrev main_call1_v0 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_10 : Ref sig .tc := ⟨.hbm, 74, rfl⟩
abbrev main_v52 : Ref sig .tc := ⟨.hbm, 75, rfl⟩
abbrev main_cst_11 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_12 : Ref sig .tc := ⟨.hbm, 80, rfl⟩
abbrev main_v56 : Ref sig .tc := ⟨.hbm, 81, rfl⟩
abbrev main_v57 : Ref sig .tc := ⟨.hbm, 82, rfl⟩
abbrev main_cst_13 : Ref sig .tc := ⟨.hbm, 83, rfl⟩
abbrev main_v58 : Ref sig .tc := ⟨.hbm, 84, rfl⟩
abbrev main_v59 : Ref sig .tc := ⟨.hbm, 85, rfl⟩
abbrev main_cst_14 : Ref sig .tc := ⟨.hbm, 86, rfl⟩
abbrev main_call2_v0 : Ref sig .tc := ⟨.hbm, 87, rfl⟩
abbrev main_call2_v1 : Ref sig .tc := ⟨.hbm, 88, rfl⟩
abbrev main_v60 : Ref sig .tc := ⟨.hbm, 89, rfl⟩
abbrev main_c_15 : Ref sig .tc := ⟨.hbm, 90, rfl⟩
abbrev main_v61 : Ref sig .tc := ⟨.hbm, 91, rfl⟩
abbrev main_v62 : Ref sig .tc := ⟨.hbm, 92, rfl⟩
abbrev main_c_16 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_c_17 : Ref sig .tc := ⟨.hbm, 99, rfl⟩
abbrev main_v68 : Ref sig .tc := ⟨.hbm, 100, rfl⟩
abbrev main_v69 : Ref sig .tc := ⟨.hbm, 101, rfl⟩
abbrev main_c_18 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_c_19 : Ref sig .tc := ⟨.hbm, 110, rfl⟩
abbrev main_v77 : Ref sig .tc := ⟨.hbm, 111, rfl⟩
abbrev main_v78 : Ref sig .tc := ⟨.hbm, 112, rfl⟩
abbrev main_c_20 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_cst_21 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  concatenates_S3200000_S100000_S3300000_d0 : Shape.Concatenates [S3200000, S100000] S3300000 0
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x1 : S_.BroadcastsInDim S100000x1 (![] : Fin 0 → Fin S100000x1.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x128_S128x64_S100000x64_1_0_0_1_n_n_wf : DotDims.WF S100000x128 S128x64 S100000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S100000x64_S64x1_S100000x1_1_0_0_1_n_n_wf : DotDims.WF S100000x64 S64x1 S100000x1 [1] [0] [0] [1] [] []
  gather_S100000x1_S3300000x1_S3300000x1_1_0_n_n_0_1_11_wf : GatherDims.WF S100000x1 S3300000x1 S3300000x1 [1] [0] [] [0] [] 1 ![1, 1]
  scatter_S100000x1_S3300000x1_S3300000x1_1_0_0_1_wf : ScatterDims.WF S100000x1 S3300000x1 S3300000x1 [1] [0] [0] 1

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S100000x64_S64x1_S100000x1_1_0_0_1_n_n : DotDims S100000x64 S64x1 S100000x1 where
  lhsContracting := [1]
  rhsContracting := [0]
  lhsNonContracting := [0]
  rhsNonContracting := [1]
  lhsBatch := []
  rhsBatch := []
  wf := dot_S100000x64_S64x1_S100000x1_1_0_0_1_n_n_wf
def gather_S100000x1_S3300000x1_S3300000x1_1_0_n_n_0_1_11 : GatherDims S100000x1 S3300000x1 S3300000x1 where
  offsetDims := [1]
  collapsedSliceDims := [0]
  operandBatchingDims := []
  startIndicesBatchingDims := []
  startIndexMap := [0]
  indexVectorDim := 1
  sliceSizes := ![1, 1]
  wf := gather_S100000x1_S3300000x1_S3300000x1_1_0_n_n_0_1_11_wf
def scatter_S100000x1_S3300000x1_S3300000x1_1_0_0_1 : ScatterDims S100000x1 S3300000x1 S3300000x1 where
  updateWindowDims := [1]
  insertedWindowDims := [0]
  scatterDimsToOperandDims := [0]
  indexVectorDim := 1
  wf := scatter_S100000x1_S3300000x1_S3300000x1_1_0_0_1_wf

class Facts : Prop extends Facts₀ where

variable [Facts]
-- ==== Proof.KRun.lean ====
/-
  The idealized kernel's run with its result array named.

  The program is eight segments: three stretches of host operations, the first dense transform as a
  pipelined region, two stretches, the second dense transform, and a last stretch.  Every weakly fair
  execution terminates without a fault, and the final memory holds, at every buffer no region scopes,
  the fold of the segments over the launch memory; read at the result buffer and at the six arguments
  this is the run below.  The fold itself (what each stretch and each region leaves) is opened elsewhere.
-/
import proofs.«166392_j25804163514759_2_alg».proof.Proof.Gen.KernelIdeal.Frame

set_option maxRecDepth 16384

noncomputable section

namespace Cert.KernelIdeal.KRun

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program ends with the result buffer at the last boundary's contents
    (the fold of all eight segments from the launch memory) and the six argument arrays as launched. -/
theorem run_named : θ_run defs (onTc (τ := τ) (main (F := F))) ⟨m, fun _ => 0, ρ⟩ (fun r => ∀ c : Dev nD,
      r.2.mem ((c.tc : Thread nD τ).loc main_v64) = W8 m ρ c (Proc.devRef .tc main_v64)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v64 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c)⟩)

end Cert.KernelIdeal.KRun

end
-- ==== Proof.Spec.lean ====
/-
  The two-layer graph convolution as pure functions of arrays, at the exact extended reals.

  Edge endpoints with one self-loop per node appended (`srcOf`, `dstOf`); the symmetric normalization
  weight of every edge, dinv(src) · dinv(dst) with dinv = deg^(-1/2) where the in-degree is positive and 0
  elsewhere (`normOf`); one aggregation step — gather the source rows of the transformed features, scale by
  the edge weight, add into the destination rows, add the bias — at widths 64 (`agg64`) and 1 (`agg1`);
  the rectifier (`relu64`); and the dense feature transforms as plain sums over the contracted axis
  (`mm1`, `mm2`).  `gcn` composes them: agg1 ∘ mm2 ∘ relu64 ∘ agg64 ∘ mm1.
-/
import proofs.«166392_j25804163514759_2_alg».proof.KernelIdeal
import Idealize.ShloMosaic.PureOps.Ideal
import Idealize.ShloMosaic.Lib.ValueIdx

noncomputable section

open scoped BigOperators

namespace Cert.Gcn

open Idealize.ShloMosaic Idealize.ShloMosaic.ValueIdx Cert.KernelIdeal

variable [Cert.KernelIdeal.Facts₀]
open Cert.KernelIdeal.Facts₀

/-- Row 0 of the edge list: the source endpoint of every edge. -/
def row0 (e : (⟨S2x3200000, .i32⟩ : BufTy).Contents (Elt Ideal)) : (⟨S3200000, .i32⟩ : BufTy).Contents (Elt Ideal) :=
  shapeCast _ (extractStridedSlice S1x3200000 ![0, 0] e slices_S2x3200000_S1x3200000_0_0) shapeCasts_S1x3200000_S3200000

/-- Row 1 of the edge list: the destination endpoint of every edge. -/
def row1 (e : (⟨S2x3200000, .i32⟩ : BufTy).Contents (Elt Ideal)) : (⟨S3200000, .i32⟩ : BufTy).Contents (Elt Ideal) :=
  shapeCast _ (extractStridedSlice S1x3200000 ![1, 0] e slices_S2x3200000_S1x3200000_1_0) shapeCasts_S1x3200000_S3200000

/-- A list of edge endpoints followed by every node once (one self-loop per node). -/
def withLoops (row : (⟨S3200000, .i32⟩ : BufTy).Contents (Elt Ideal)) : (⟨S3300000, .i32⟩ : BufTy).Contents (Elt Ideal) :=
  concatenate S3300000 0 [⟨S3200000, row⟩, ⟨S100000, iotaInDim S100000 32 0⟩] concatenates_S3200000_S100000_S3300000_d0

/-- Source endpoints of the edges, then every node once (the self-loops). -/
def srcOf (e : (⟨S2x3200000, .i32⟩ : BufTy).Contents (Elt Ideal)) : (⟨S3300000, .i32⟩ : BufTy).Contents (Elt Ideal) :=
  withLoops (row0 e)

/-- Destination endpoints of the edges, then every node once. -/
def dstOf (e : (⟨S2x3200000, .i32⟩ : BufTy).Contents (Elt Ideal)) : (⟨S3300000, .i32⟩ : BufTy).Contents (Elt Ideal) :=
  withLoops (row1 e)

/-- A node index as a gather/scatter start index: negative indices wrap around once, and the list becomes a column. -/
def startCol (idx : (⟨S3300000, .i32⟩ : BufTy).Contents (Elt Ideal)) : (⟨S3300000x1, .i32⟩ : BufTy).Contents (Elt Ideal) :=
  broadcastInDim S3300000x1 ![0] bcast_S3300000_S3300000x1_0
    (select (cmpi .slt idx (broadcastInDim S3300000 ![] bcast_S_S3300000 (constantI S_ 32 0#32)))
      (addi idx (broadcastInDim S3300000 ![] bcast_S_S3300000 (constantI S_ 32 100000#32))) idx)

/-- The in-degree of every node, self-loop included: one unit added at each edge's destination. -/
def degOf (dst : (⟨S3300000, .i32⟩ : BufTy).Contents (Elt Ideal)) : (⟨S100000, .f32⟩ : BufTy).Contents (Elt Ideal) :=
  Host.scatterAdd (F := Ideal) scatter_S100000_S3300000x1_S3300000_n_0_0_1
    (broadcastInDim S100000 ![] bcast_S_S100000 (constant (F := Ideal) S_ .f32 0x00000000#32))
    (broadcastInDim S3300000x1 ![0] bcast_S3300000_S3300000x1_0 dst)
    (broadcastInDim S3300000 ![] bcast_S_S3300000 (constant (F := Ideal) S_ .f32 0x3F800000#32))

/-- deg^(-1/2) where the in-degree is positive, 0 elsewhere. -/
def dinvOf (dst : (⟨S3300000, .i32⟩ : BufTy).Contents (Elt Ideal)) : (⟨S100000, .f32⟩ : BufTy).Contents (Elt Ideal) :=
  select (cmpf (F := Ideal) .ogt (degOf dst) (broadcastInDim S100000 ![] bcast_S_S100000 (constant (F := Ideal) S_ .f32 0x00000000#32)))
    (Host.powf (F := Ideal) (degOf dst) (broadcastInDim S100000 ![] bcast_S_S100000 (constant (F := Ideal) S_ .f32 0xBF000000#32)))
    (broadcastInDim S100000 ![] bcast_S_S100000 (constant (F := Ideal) S_ .f32 0x00000000#32))

/-- The weight of every edge from a table of per-node factors: the factor at its source times the factor at its destination. -/
def normFrom (dinv : (⟨S100000, .f32⟩ : BufTy).Contents (Elt Ideal)) (src dst : (⟨S3300000, .i32⟩ : BufTy).Contents (Elt Ideal)) :
    (⟨S3300000, .f32⟩ : BufTy).Contents (Elt Ideal) :=
  mulf (F := Ideal) (φ := .f32) (Host.gather gather_S100000_S3300000x1_S3300000_n_0_n_n_0_1_1 dinv (startCol src))
    (Host.gather gather_S100000_S3300000x1_S3300000_n_0_n_n_0_1_1 dinv (startCol dst))

/-- The weight of every edge: dinv at its source times dinv at its destination. -/
def normOf (src dst : (⟨S3300000, .i32⟩ : BufTy).Contents (Elt Ideal)) : (⟨S3300000, .f32⟩ : BufTy).Contents (Elt Ideal) :=
  normFrom (dinvOf dst) src dst

/-- One aggregation at width 64: Σ over incoming edges of weight · source row, plus the bias row. -/
def agg64 (h : (⟨S100000x64, .f32⟩ : BufTy).Contents (Elt Ideal))
    (src dst : (⟨S3300000, .i32⟩ : BufTy).Contents (Elt Ideal)) (norm : (⟨S3300000, .f32⟩ : BufTy).Contents (Elt Ideal))
    (b : (⟨S64, .f32⟩ : BufTy).Contents (Elt Ideal)) : (⟨S100000x64, .f32⟩ : BufTy).Contents (Elt Ideal) :=
  addf (F := Ideal)
    (Host.scatterAdd (F := Ideal) scatter_S100000x64_S3300000x1_S3300000x64_1_0_0_1
      (broadcastInDim S100000x64 ![] bcast_S_S100000x64 (constant (F := Ideal) S_ .f32 0x00000000#32))
      (broadcastInDim S3300000x1 ![0] bcast_S3300000_S3300000x1_0 dst)
      (mulf (F := Ideal) (Host.gather gather_S100000x64_S3300000x1_S3300000x64_1_0_n_n_0_1_164 h (startCol src))
        (broadcastInDim S3300000x64 ![0, 1] bcast_S3300000x1_S3300000x64_0_1
          (broadcastInDim S3300000x1 ![0] bcast_S3300000_S3300000x1_0 norm))))
    (broadcastInDim S100000x64 ![0, 1] bcast_S1x64_S100000x64_0_1 (broadcastInDim S1x64 ![1] bcast_S64_S1x64_1 b))

/-- The rectifier max(a, 0), entry by entry. -/
def relu64 (a : (⟨S100000x64, .f32⟩ : BufTy).Contents (Elt Ideal)) : (⟨S100000x64, .f32⟩ : BufTy).Contents (Elt Ideal) :=
  maximumf (F := Ideal) a (broadcastInDim S100000x64 ![] bcast_S_S100000x64 (constant (F := Ideal) S_ .f32 0x00000000#32))

/-- One aggregation at width 1. -/
def agg1 (h : (⟨S100000x1, .f32⟩ : BufTy).Contents (Elt Ideal))
    (src dst : (⟨S3300000, .i32⟩ : BufTy).Contents (Elt Ideal)) (norm : (⟨S3300000, .f32⟩ : BufTy).Contents (Elt Ideal))
    (b : (⟨S1, .f32⟩ : BufTy).Contents (Elt Ideal)) : (⟨S100000x1, .f32⟩ : BufTy).Contents (Elt Ideal) :=
  addf (F := Ideal)
    (Host.scatterAdd (F := Ideal) scatter_S100000x1_S3300000x1_S3300000x1_1_0_0_1
      (broadcastInDim S100000x1 ![] bcast_S_S100000x1 (constant (F := Ideal) S_ .f32 0x00000000#32))
      (broadcastInDim S3300000x1 ![0] bcast_S3300000_S3300000x1_0 dst)
      (mulf (F := Ideal) (Host.gather gather_S100000x1_S3300000x1_S3300000x1_1_0_n_n_0_1_11 h (startCol src))
        (broadcastInDim S3300000x1 ![0] bcast_S3300000_S3300000x1_0 norm)))
    (broadcastInDim S100000x1 ![0, 1] bcast_S1x1_S100000x1_0_1 (broadcastInDim S1x1 ![1] bcast_S1_S1x1_1 b))

/-- The first feature transform x · W1, entry (p, c) the sum over the 128 input features. -/
def mm1 (x : (⟨S100000x128, .f32⟩ : BufTy).Contents (Elt Ideal)) (w : (⟨S128x64, .f32⟩ : BufTy).Contents (Elt Ideal)) :
    (⟨S100000x64, .f32⟩ : BufTy).Contents (Elt Ideal) :=
  fun i => ∑ q : Fin 128, x (ix2 (i 0) q) * w (ix2 q (i 1))

/-- The second feature transform h · W2, entry (p, 0) the sum over the 64 hidden features. -/
def mm2 (h : (⟨S100000x64, .f32⟩ : BufTy).Contents (Elt Ideal)) (w : (⟨S64x1, .f32⟩ : BufTy).Contents (Elt Ideal)) :
    (⟨S100000x1, .f32⟩ : BufTy).Contents (Elt Ideal) :=
  fun i => ∑ q : Fin 64, h (ix2 (i 0) q) * w (ix2 q (i 1))

/-- The network: two normalized-adjacency aggregations around the two dense transforms and the rectifier. -/
def gcn (x : (⟨S100000x128, .f32⟩ : BufTy).Contents (Elt Ideal)) (e : (⟨S2x3200000, .i32⟩ : BufTy).Contents (Elt Ideal))
    (w1 : (⟨S128x64, .f32⟩ : BufTy).Contents (Elt Ideal)) (b1 : (⟨S64, .f32⟩ : BufTy).Contents (Elt Ideal))
    (w2 : (⟨S64x1, .f32⟩ : BufTy).Contents (Elt Ideal)) (b2 : (⟨S1, .f32⟩ : BufTy).Contents (Elt Ideal)) :
    (⟨S100000x1, .f32⟩ : BufTy).Contents (Elt Ideal) :=
  agg1 (mm2 (relu64 (agg64 (mm1 x w1) (srcOf e) (dstOf e) (normOf (srcOf e) (dstOf e)) b1)) w2)
    (srcOf e) (dstOf e) (normOf (srcOf e) (dstOf e)) b2

end Cert.Gcn

end
-- ==== Proof.KHost.lean ====
/-
  What the host stretches of the idealized kernel's program compute, for any contents `V` of the buffers they
  start from: the three stretches before the first dense transform leave the edge endpoints (with the
  self-loops) and the normalization weights, as functions of the edge-list argument alone; the two stretches
  between the transforms leave the rectified first aggregation of the first transform's result; the last
  stretch leaves the second aggregation of the second transform's result.  Buffers a stretch does not write
  keep their contents.
-/
import proofs.«166392_j25804163514759_2_alg».proof.Proof.Gen.KernelIdeal.Launch
import proofs.«166392_j25804163514759_2_alg».proof.Proof.Spec
import Idealize.ShloMosaic.Lib.StableHlo.Run

set_option maxRecDepth 16384

noncomputable section

namespace Cert.KernelIdeal.KHost

open Cert.KernelIdeal Cert.KernelIdeal.Gen Cert.Gcn
open Idealize.ShloMosaic Idealize.ShloMosaic.TcCoe Idealize.SL.Sem Idealize.ShloMosaic.StableHlo

variable (V : Valuation τ sig (Elt Ideal))

/-- The buffers after the three stretches that precede the first dense transform. -/
abbrev pre : Valuation τ sig (Elt Ideal) := after hostOps0_2 (after hostOps0_1 (after hostOps0 V))

/-- The buffers after the two stretches between the dense transforms. -/
abbrev mid : Valuation τ sig (Elt Ideal) := after hostOps1_1 (after hostOps1 V)

/-! ## Before the first transform: three stretches -/

/-- The first stretch leaves the source endpoints with the self-loops, -/
theorem s0_src : after hostOps0 V (Proc.devRef .tc main_v5) = srcOf (V (Proc.devRef .tc main_arg1)) := by
  after_results
  rfl

/-- the destination endpoints with the self-loops, -/
theorem s0_dst : after hostOps0 V (Proc.devRef .tc main_v6) = dstOf (V (Proc.devRef .tc main_arg1)) := by
  after_results
  rfl

set_option maxHeartbeats 1000000 in
/-- where the in-degree is positive, -/
theorem s0_pos : after hostOps0 V (Proc.devRef .tc main_v12)
    = cmpf (F := Ideal) .ogt (degOf (dstOf (V (Proc.devRef .tc main_arg1)))) (broadcastInDim S100000 ![] bcast_S_S100000 (constant (F := Ideal) S_ .f32 0x00000000#32)) := by
  after_results
  rfl

set_option maxHeartbeats 1000000 in
/-- the in-degree to the power -1/2, -/
theorem s0_pow : after hostOps0 V (Proc.devRef .tc main_v14)
    = Host.powf (F := Ideal) (degOf (dstOf (V (Proc.devRef .tc main_arg1)))) (broadcastInDim S100000 ![] bcast_S_S100000 (constant (F := Ideal) S_ .f32 0xBF000000#32)) := by
  after_results
  rfl

/-- and a zero. -/
theorem s0_zero : after hostOps0 V (Proc.devRef .tc main_cst_3) = constant (F := Ideal) S_ .f32 0x00000000#32 := by
  after_results

theorem s0_keep_arg0 : after hostOps0 V (Proc.devRef .tc main_arg0) = V (Proc.devRef .tc main_arg0) := by
  after_results

theorem s0_keep_arg2 : after hostOps0 V (Proc.devRef .tc main_arg2) = V (Proc.devRef .tc main_arg2) := by
  after_results

theorem s0_keep_arg3 : after hostOps0 V (Proc.devRef .tc main_arg3) = V (Proc.devRef .tc main_arg3) := by
  after_results

theorem s0_keep_arg4 : after hostOps0 V (Proc.devRef .tc main_arg4) = V (Proc.devRef .tc main_arg4) := by
  after_results

theorem s0_keep_arg5 : after hostOps0 V (Proc.devRef .tc main_arg5) = V (Proc.devRef .tc main_arg5) := by
  after_results

/-- The second stretch selects between them: dinv. -/
theorem s1_dinv : after hostOps0_1 V (Proc.devRef .tc main_v15)
    = select (V (Proc.devRef .tc main_v12)) (V (Proc.devRef .tc main_v14)) (broadcastInDim S100000 ![] bcast_S_S100000 (V (Proc.devRef .tc main_cst_3))) := by
  after_results
  rfl

theorem s1_keep_v5 : after hostOps0_1 V (Proc.devRef .tc main_v5) = V (Proc.devRef .tc main_v5) := by
  after_results

theorem s1_keep_v6 : after hostOps0_1 V (Proc.devRef .tc main_v6) = V (Proc.devRef .tc main_v6) := by
  after_results

theorem s1_keep_arg0 : after hostOps0_1 V (Proc.devRef .tc main_arg0) = V (Proc.devRef .tc main_arg0) := by
  after_results

theorem s1_keep_arg2 : after hostOps0_1 V (Proc.devRef .tc main_arg2) = V (Proc.devRef .tc main_arg2) := by
  after_results

theorem s1_keep_arg3 : after hostOps0_1 V (Proc.devRef .tc main_arg3) = V (Proc.devRef .tc main_arg3) := by
  after_results

theorem s1_keep_arg4 : after hostOps0_1 V (Proc.devRef .tc main_arg4) = V (Proc.devRef .tc main_arg4) := by
  after_results

theorem s1_keep_arg5 : after hostOps0_1 V (Proc.devRef .tc main_arg5) = V (Proc.devRef .tc main_arg5) := by
  after_results

/-- The third stretch leaves the edge weights. -/
theorem s2_norm : after hostOps0_2 V (Proc.devRef .tc main_v30) = normFrom (V (Proc.devRef .tc main_v15)) (V (Proc.devRef .tc main_v5)) (V (Proc.devRef .tc main_v6)) := by
  after_results_simp
  rfl

theorem s2_keep_v5 : after hostOps0_2 V (Proc.devRef .tc main_v5) = V (Proc.devRef .tc main_v5) := by
  after_results

theorem s2_keep_v6 : after hostOps0_2 V (Proc.devRef .tc main_v6) = V (Proc.devRef .tc main_v6) := by
  after_results

theorem s2_keep_arg0 : after hostOps0_2 V (Proc.devRef .tc main_arg0) = V (Proc.devRef .tc main_arg0) := by
  after_results

theorem s2_keep_arg2 : after hostOps0_2 V (Proc.devRef .tc main_arg2) = V (Proc.devRef .tc main_arg2) := by
  after_results

theorem s2_keep_arg3 : after hostOps0_2 V (Proc.devRef .tc main_arg3) = V (Proc.devRef .tc main_arg3) := by
  after_results

theorem s2_keep_arg4 : after hostOps0_2 V (Proc.devRef .tc main_arg4) = V (Proc.devRef .tc main_arg4) := by
  after_results

theorem s2_keep_arg5 : after hostOps0_2 V (Proc.devRef .tc main_arg5) = V (Proc.devRef .tc main_arg5) := by
  after_results

theorem pre_src : pre V (Proc.devRef .tc main_v5) = srcOf (V (Proc.devRef .tc main_arg1)) :=
  (s2_keep_v5 _).trans ((s1_keep_v5 _).trans (s0_src V))

theorem pre_dst : pre V (Proc.devRef .tc main_v6) = dstOf (V (Proc.devRef .tc main_arg1)) :=
  (s2_keep_v6 _).trans ((s1_keep_v6 _).trans (s0_dst V))

/-- The edge weights, from the edge list alone. -/
theorem pre_norm : pre V (Proc.devRef .tc main_v30)
    = normOf (srcOf (V (Proc.devRef .tc main_arg1))) (dstOf (V (Proc.devRef .tc main_arg1))) := by
  refine (s2_norm _).trans ?_
  rw [s1_dinv, s1_keep_v5, s1_keep_v6, s0_pos, s0_pow, s0_zero, s0_src, s0_dst]
  rfl

theorem pre_keep_arg0 : pre V (Proc.devRef .tc main_arg0) = V (Proc.devRef .tc main_arg0) :=
  (s2_keep_arg0 _).trans ((s1_keep_arg0 _).trans (s0_keep_arg0 V))

theorem pre_keep_arg2 : pre V (Proc.devRef .tc main_arg2) = V (Proc.devRef .tc main_arg2) :=
  (s2_keep_arg2 _).trans ((s1_keep_arg2 _).trans (s0_keep_arg2 V))

theorem pre_keep_arg3 : pre V (Proc.devRef .tc main_arg3) = V (Proc.devRef .tc main_arg3) :=
  (s2_keep_arg3 _).trans ((s1_keep_arg3 _).trans (s0_keep_arg3 V))

theorem pre_keep_arg4 : pre V (Proc.devRef .tc main_arg4) = V (Proc.devRef .tc main_arg4) :=
  (s2_keep_arg4 _).trans ((s1_keep_arg4 _).trans (s0_keep_arg4 V))

theorem pre_keep_arg5 : pre V (Proc.devRef .tc main_arg5) = V (Proc.devRef .tc main_arg5) :=
  (s2_keep_arg5 _).trans ((s1_keep_arg5 _).trans (s0_keep_arg5 V))

/-! ## Between the transforms: two stretches -/

set_option maxHeartbeats 1000000 in
/-- The first aggregation, from the first transform's result, the endpoints, the weights and the bias. -/
theorem m0_agg : after hostOps1 V (Proc.devRef .tc main_v47)
    = agg64 (V (Proc.devRef .tc main_v31)) (V (Proc.devRef .tc main_v5)) (V (Proc.devRef .tc main_v6)) (V (Proc.devRef .tc main_v30)) (V (Proc.devRef .tc main_arg3)) := by
  after_results_simp
  rfl

theorem m0_keep_v5 : after hostOps1 V (Proc.devRef .tc main_v5) = V (Proc.devRef .tc main_v5) := by
  after_results

theorem m0_keep_v6 : after hostOps1 V (Proc.devRef .tc main_v6) = V (Proc.devRef .tc main_v6) := by
  after_results

theorem m0_keep_v30 : after hostOps1 V (Proc.devRef .tc main_v30) = V (Proc.devRef .tc main_v30) := by
  after_results

theorem m0_keep_arg4 : after hostOps1 V (Proc.devRef .tc main_arg4) = V (Proc.devRef .tc main_arg4) := by
  after_results

theorem m0_keep_arg5 : after hostOps1 V (Proc.devRef .tc main_arg5) = V (Proc.devRef .tc main_arg5) := by
  after_results

/-- The rectifier. -/
theorem m1_relu : after hostOps1_1 V (Proc.devRef .tc main_v48) = relu64 (V (Proc.devRef .tc main_v47)) := by
  after_results
  rfl

theorem m1_keep_v5 : after hostOps1_1 V (Proc.devRef .tc main_v5) = V (Proc.devRef .tc main_v5) := by
  after_results

theorem m1_keep_v6 : after hostOps1_1 V (Proc.devRef .tc main_v6) = V (Proc.devRef .tc main_v6) := by
  after_results

theorem m1_keep_v30 : after hostOps1_1 V (Proc.devRef .tc main_v30) = V (Proc.devRef .tc main_v30) := by
  after_results

theorem m1_keep_arg4 : after hostOps1_1 V (Proc.devRef .tc main_arg4) = V (Proc.devRef .tc main_arg4) := by
  after_results

theorem m1_keep_arg5 : after hostOps1_1 V (Proc.devRef .tc main_arg5) = V (Proc.devRef .tc main_arg5) := by
  after_results

/-- The rectified first aggregation. -/
theorem mid_hidden : mid V (Proc.devRef .tc main_v48)
    = relu64 (agg64 (V (Proc.devRef .tc main_v31)) (V (Proc.devRef .tc main_v5)) (V (Proc.devRef .tc main_v6)) (V (Proc.devRef .tc main_v30)) (V (Proc.devRef .tc main_arg3))) :=
  (m1_relu _).trans (congrArg relu64 (m0_agg V))

theorem mid_keep_v5 : mid V (Proc.devRef .tc main_v5) = V (Proc.devRef .tc main_v5) :=
  (m1_keep_v5 _).trans (m0_keep_v5 V)

theorem mid_keep_v6 : mid V (Proc.devRef .tc main_v6) = V (Proc.devRef .tc main_v6) :=
  (m1_keep_v6 _).trans (m0_keep_v6 V)

theorem mid_keep_v30 : mid V (Proc.devRef .tc main_v30) = V (Proc.devRef .tc main_v30) :=
  (m1_keep_v30 _).trans (m0_keep_v30 V)

theorem mid_keep_arg4 : mid V (Proc.devRef .tc main_arg4) = V (Proc.devRef .tc main_arg4) :=
  (m1_keep_arg4 _).trans (m0_keep_arg4 V)

theorem mid_keep_arg5 : mid V (Proc.devRef .tc main_arg5) = V (Proc.devRef .tc main_arg5) :=
  (m1_keep_arg5 _).trans (m0_keep_arg5 V)

/-! ## After the second transform -/

set_option maxHeartbeats 4000000 in
/-- The second aggregation, from the second transform's result, the endpoints, the weights and the bias. -/
theorem tail_out : after hostOps2 V (Proc.devRef .tc main_v64)
    = agg1 (V (Proc.devRef .tc main_v49)) (V (Proc.devRef .tc main_v5)) (V (Proc.devRef .tc main_v6))
        (V (Proc.devRef .tc main_v30)) (V (Proc.devRef .tc main_arg5)) := by
  after_results_simp
  rfl

end Cert.KernelIdeal.KHost

end
-- ==== Proof.LibDense.lean ====
/-
  A plain matrix product read at an entry.

  For dimension numbers that contract the left operand's columns against the right operand's rows —
  rows × inner times inner × columns, no batch axis — the contraction index is its one coordinate, and
  the sum over it of the operands' products at entry `(p, c)` is `∑ q, lhs (p, q) · rhs (q, c)`.  Read at
  the exact extended reals, a matrix-unit product into a zero accumulator and a host `dot_general` are
  both that sum, whatever their precision or schedule, and whatever the number of rows.
-/
import Idealize.ShloMosaic.Lib.ValueIdx
import Idealize.ShloMosaic.PureOps.Ideal.Laws

noncomputable section

open scoped BigOperators

namespace Cert.LibDense

open Idealize.ShloMosaic Idealize.ShloMosaic.ValueIdx

variable {n k d : ℕ}

/-- The sum over a one-axis contraction index, re-indexed by the axis's coordinate, for a product whose
    operand indices at output `(p, c)` and contraction coordinate `q` are `(p, q)` and `(q, c)`. -/
theorem sum_contr_eq {φ₁ φ₂ : FTy} (D : DotDims ⟨2, ![n, k]⟩ ⟨2, ![k, d]⟩ ⟨2, ![n, d]⟩)
    (hr : D.contr.rank = 1) (hs : D.contr.size ⟨0, by omega⟩ = k)
    (hl0 : ∀ (i : (⟨2, ![n, d]⟩ : Shape).Idx) (q : D.contr.Idx), (D.lhsIdx i q 0).val = (i 0).val)
    (hl1 : ∀ (i : (⟨2, ![n, d]⟩ : Shape).Idx) (q : D.contr.Idx), (D.lhsIdx i q 1).val = (q ⟨0, by omega⟩).val)
    (hr0 : ∀ (i : (⟨2, ![n, d]⟩ : Shape).Idx) (q : D.contr.Idx), (D.rhsIdx i q 0).val = (q ⟨0, by omega⟩).val)
    (hr1 : ∀ (i : (⟨2, ![n, d]⟩ : Shape).Idx) (q : D.contr.Idx), (D.rhsIdx i q 1).val = (i 1).val)
    (lhs : FVec Ideal ⟨2, ![n, k]⟩ φ₁) (rhs : FVec Ideal ⟨2, ![k, d]⟩ φ₂) (p : Fin n) (c : Fin d) :
    (∑ q : D.contr.Idx, lhs (D.lhsIdx (ix2 p c) q) * rhs (D.rhsIdx (ix2 p c) q) : EReal)
      = ∑ q : Fin k, lhs (ix2 p q) * rhs (ix2 q c) := by
  rw [← Equiv.sum_comp (contrEquiv1 D k hr hs).symm]
  refine Finset.sum_congr rfl fun q _ => ?_
  have hk := contrEquiv1_symm_val D k hr hs q
  have el : D.lhsIdx (ix2 p c) ((contrEquiv1 D k hr hs).symm q) = ix2 p q := funext fun a => Fin.ext (by
    match a with
    | ⟨0, _⟩ => exact hl0 _ _
    | ⟨1, _⟩ => exact (hl1 _ _).trans hk)
  have er : D.rhsIdx (ix2 p c) ((contrEquiv1 D k hr hs).symm q) = ix2 q c := funext fun a => Fin.ext (by
    match a with
    | ⟨0, _⟩ => exact (hr0 _ _).trans hk
    | ⟨1, _⟩ => exact hr1 _ _)
  rw [el, er]

/-- A matrix-unit product into the zero accumulator, at entry `(p, c)`. -/
theorem matmul_zero_apply {φ₁ φ₂ : FTy} (D : DotDims ⟨2, ![n, k]⟩ ⟨2, ![k, d]⟩ ⟨2, ![n, d]⟩)
    (hr : D.contr.rank = 1) (hs : D.contr.size ⟨0, by omega⟩ = k)
    (hl0 : ∀ (i : (⟨2, ![n, d]⟩ : Shape).Idx) (q : D.contr.Idx), (D.lhsIdx i q 0).val = (i 0).val)
    (hl1 : ∀ (i : (⟨2, ![n, d]⟩ : Shape).Idx) (q : D.contr.Idx), (D.lhsIdx i q 1).val = (q ⟨0, by omega⟩).val)
    (hr0 : ∀ (i : (⟨2, ![n, d]⟩ : Shape).Idx) (q : D.contr.Idx), (D.rhsIdx i q 0).val = (q ⟨0, by omega⟩).val)
    (hr1 : ∀ (i : (⟨2, ![n, d]⟩ : Shape).Idx) (q : D.contr.Idx), (D.rhsIdx i q 1).val = (i 1).val)
    (prec : Option ContractPrecision) (lhs : FVec Ideal ⟨2, ![n, k]⟩ φ₁) (rhs : FVec Ideal ⟨2, ![k, d]⟩ φ₂)
    (p : Fin n) (c : Fin d) :
    FloatOps.matmul D prec lhs rhs (constant (F := Ideal) ⟨2, ![n, d]⟩ .f32 0x00000000#32) (ix2 p c)
      = ∑ q : Fin k, lhs (ix2 p q) * rhs (ix2 q c) := by
  rw [Ideal.matmul_constant_zero_apply]
  exact sum_contr_eq D hr hs hl0 hl1 hr0 hr1 lhs rhs p c

/-- A host `dot_general`, at entry `(p, c)`. -/
theorem dotGeneral_apply {φ₁ φ₂ : FTy} (D : DotDims ⟨2, ![n, k]⟩ ⟨2, ![k, d]⟩ ⟨2, ![n, d]⟩)
    (hr : D.contr.rank = 1) (hs : D.contr.size ⟨0, by omega⟩ = k)
    (hl0 : ∀ (i : (⟨2, ![n, d]⟩ : Shape).Idx) (q : D.contr.Idx), (D.lhsIdx i q 0).val = (i 0).val)
    (hl1 : ∀ (i : (⟨2, ![n, d]⟩ : Shape).Idx) (q : D.contr.Idx), (D.lhsIdx i q 1).val = (q ⟨0, by omega⟩).val)
    (hr0 : ∀ (i : (⟨2, ![n, d]⟩ : Shape).Idx) (q : D.contr.Idx), (D.rhsIdx i q 0).val = (q ⟨0, by omega⟩).val)
    (hr1 : ∀ (i : (⟨2, ![n, d]⟩ : Shape).Idx) (q : D.contr.Idx), (D.rhsIdx i q 1).val = (i 1).val)
    (prec : Option ContractPrecision) (sched : HostSchedule)
    (lhs : FVec Ideal ⟨2, ![n, k]⟩ φ₁) (rhs : FVec Ideal ⟨2, ![k, d]⟩ φ₂) (p : Fin n) (c : Fin d) :
    FloatOps.dotGeneral D prec sched lhs rhs (ix2 p c) = ∑ q : Fin k, lhs (ix2 p q) * rhs (ix2 q c) := by
  rw [Ideal.dotGeneral_apply]
  exact sum_contr_eq D hr hs hl0 hl1 hr0 hr1 lhs rhs p c

end Cert.LibDense

end
-- ==== Proof.KMat0.lean ====
/-
  The first dense transform, as the pipelined region leaves it.

  The region's grid has 10 points; point t reads rows 10000·t … 10000·t + 9999 of the left operand and the
  whole right operand, multiplies them on the matrix unit into a zero accumulator (the operands rounded to
  bf16 first, which changes nothing at the exact extended reals), and writes the product back as rows
  10000·t … 10000·t + 9999 of the result.  So entry (r, c) of the result array ends as the sum over the
  contracted axis of left(r, q) · right(q, c): the ten blocks tile the array, and each block is the
  restriction of that one function.
-/
import proofs.«166392_j25804163514759_2_alg».proof.Proof.Gen.KernelIdeal.Frame
import proofs.«166392_j25804163514759_2_alg».proof.Proof.Spec
import proofs.«166392_j25804163514759_2_alg».proof.Proof.LibDense
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.KMat0

open Cert.KernelIdeal Cert.KernelIdeal.Gen Cert.Gcn
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem zero_off : (![0, 0] : Fin 2 → Nat) = fun _ => 0 := funext fun a => by fin_cases a <;> rfl

/-! ## The block product at an entry -/

theorem lhs_row (i : S10000x64.Idx) (q : dot_S10000x128_S128x64_S10000x64_1_0_0_1_n_n.contr.Idx) : (dot_S10000x128_S128x64_S10000x64_1_0_0_1_n_n.lhsIdx i q 0).val = (i 0).val := by
  simp [DotDims.lhsIdx, dot_S10000x128_S128x64_S10000x64_1_0_0_1_n_n]; rfl
theorem lhs_col (i : S10000x64.Idx) (q : dot_S10000x128_S128x64_S10000x64_1_0_0_1_n_n.contr.Idx) : (dot_S10000x128_S128x64_S10000x64_1_0_0_1_n_n.lhsIdx i q 1).val = (q ⟨0, by decide⟩).val := by
  simp [DotDims.lhsIdx, dot_S10000x128_S128x64_S10000x64_1_0_0_1_n_n]; rfl
theorem rhs_row (i : S10000x64.Idx) (q : dot_S10000x128_S128x64_S10000x64_1_0_0_1_n_n.contr.Idx) : (dot_S10000x128_S128x64_S10000x64_1_0_0_1_n_n.rhsIdx i q 0).val = (q ⟨0, by decide⟩).val := by
  simp [DotDims.rhsIdx, dot_S10000x128_S128x64_S10000x64_1_0_0_1_n_n]; rfl
theorem rhs_col (i : S10000x64.Idx) (q : dot_S10000x128_S128x64_S10000x64_1_0_0_1_n_n.contr.Idx) : (dot_S10000x128_S128x64_S10000x64_1_0_0_1_n_n.rhsIdx i q 1).val = (i 1).val := by
  simp [DotDims.rhsIdx, dot_S10000x128_S128x64_S10000x64_1_0_0_1_n_n]; rfl

/-- The body's stored value at entry (p, c) of the block: the sum over the contracted axis. -/
theorem pay_apply (x0 : Vec Ideal S10000x128 .f32) (x1 : Vec Ideal S128x64 .f32) (p : Fin 10000) (c : Fin 64) :
    k0_pay1 x0 x1 (ix2 p c) = ∑ q : Fin 128, x0 (ix2 p q) * x1 (ix2 q c) := by
  unfold k0_pay1
  exact Cert.LibDense.matmul_zero_apply dot_S10000x128_S128x64_S10000x64_1_0_0_1_n_n rfl rfl lhs_row lhs_col rhs_row rhs_col none _ _ p c

/-- A block product against the whole-array transform: when the left block is rows 10000·n … of `x` and the right
    block is `w`, entry j of the block product is entry i of the transform, for i = (10000·n + j₀, j₁). -/
theorem block_eq (x : (⟨S100000x128, .f32⟩ : BufTy).Contents (Elt Ideal)) (w : (⟨S128x64, .f32⟩ : BufTy).Contents (Elt Ideal))
    (x0 : Vec Ideal S10000x128 .f32) (x1 : Vec Ideal S128x64 .f32) (n : Nat)
    (h0 : ∀ (p : Fin 10000) (q : Fin 128) (k : S100000x128.Idx), (k 0).val = n * 10000 + p.val → (k 1).val = q.val → x0 (ix2 p q) = x k)
    (h1 : ∀ (q : Fin 128) (c : Fin 64), x1 (ix2 q c) = w (ix2 q c))
    (j : S10000x64.Idx) (i : S100000x64.Idx) (hi0 : (i 0).val = n * 10000 + (j 0).val) (hi1 : (i 1).val = (j 1).val) :
    k0_pay1 x0 x1 j = mm1 x w i := by
  obtain ⟨p, c, rfl⟩ : ∃ (p : Fin 10000) (c : Fin 64), j = ix2 p c := ⟨j 0, j 1, eq_ix2 j⟩
  rw [pay_apply]
  unfold mm1
  refine Finset.sum_congr rfl fun q _ => ?_
  rw [h0 p q (ix2 (i 0) q) hi0 rfl, h1 q c]
  have e : (ix2 q (i 1) : S128x64.Idx) = ix2 q c := funext fun a => Fin.ext (by
    match a with
    | ⟨0, _⟩ => rfl
    | ⟨1, _⟩ => exact hi1)
  rw [e]

/-! ## From the blocks to the array -/

/-- The printed index maps over the grid: the left operand's and the result's blocks move down with the point, the
    right operand's block stays. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the transform of the arrays the region finds. -/
theorem flushed_eq (c : Dev nD) (t : Fin cfg0.N) :
    (dat0 V c).flushed 2 t = ((cfg0.win 2).blk t).view.read (Elt Ideal)
      (mm1 (V c main_arg0) (V c main_arg2) : Buf (Elt Ideal) ((c : Thread nD τ).loc main_v31)) := by
  show (cfg0.win 2).cut (grid0.coords t) ((dat0 V c).after 2 t) = _
  rw [after0_2]
  unfold out0_2
  rw [View.canon_unit_zero zero_off]
  simp only [View.ld_unit_zero (S := S10000x128) zero_off, View.ld_unit_zero (S := S128x64) zero_off]
  obtain ⟨e0, e1, e2, e3, e4, e5⟩ := idx_facts t
  funext j
  refine block_eq (V c main_arg0) (V c main_arg2) _ _ t.val ?_ ?_ j _ ?_ ?_
  · intro p q k hk0 hk1
    show V c main_arg0 (((cfg0.win 0).blk t).view.emb (ix2 p q)) = V c main_arg0 k
    refine congrArg _ (funext fun a => Fin.ext ?_)
    match a with
    | ⟨0, _⟩ => show win0_0.index t (0 : Fin 2) * 10000 + 1 * p.val = (k 0).val; rw [e0, hk0]; omega
    | ⟨1, _⟩ => show win0_0.index t (1 : Fin 2) * 128 + 1 * q.val = (k 1).val; rw [e1, hk1]; omega
  · intro q c'
    show V c main_arg2 (((cfg0.win 1).blk t).view.emb (ix2 q c')) = V c main_arg2 (ix2 q c')
    refine congrArg _ (funext fun a => Fin.ext ?_)
    match a with
    | ⟨0, _⟩ => show win0_1.index t (0 : Fin 2) * 128 + 1 * q.val = q.val; rw [e2]; omega
    | ⟨1, _⟩ => show win0_1.index t (1 : Fin 2) * 64 + 1 * c'.val = c'.val; rw [e3]; omega
  · show win0_2.index t (0 : Fin 2) * 10000 + 1 * (j 0).val = t.val * 10000 + (j 0).val; rw [e4]; omega
  · show win0_2.index t (1 : Fin 2) * 64 + 1 * (j 1).val = (j 1).val; rw [e5]; omega

/-- An index of the result array is in point `t`'s block iff each coordinate is in the block's range on its axis. -/
theorem mem_blk (t : Fin cfg0.N) (i : S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v31).slice (win0_2.rect t)).set ↔ _
  rw [View.set_slice_whole, Rect.mem_set_unit]
  exact Iff.rfl

/-- Every row of the result array is in the block of the point that owns it: row r belongs to point r / 10000. -/
theorem cover (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  have hN : cfg0.N = 10 := N_0
  refine ⟨⟨(i 0).val / 10000, by rw [hN]; omega⟩, flush0_2 _, ?_⟩
  rw [mem_blk]
  obtain ⟨-, -, -, -, e4, e5⟩ := idx_facts ⟨(i 0).val / 10000, by rw [hN]; omega⟩
  intro a
  match a with
  | ⟨0, _⟩ =>
    show win0_2.index _ (0 : Fin 2) * 10000 ≤ (i 0).val ∧ (i 0).val < win0_2.index _ (0 : Fin 2) * 10000 + 10000
    rw [e4]; show (i 0).val / 10000 * 10000 ≤ (i 0).val ∧ (i 0).val < (i 0).val / 10000 * 10000 + 10000; omega
  | ⟨1, _⟩ =>
    show win0_2.index _ (1 : Fin 2) * 64 ≤ (i 1).val ∧ (i 1).val < win0_2.index _ (1 : Fin 2) * 64 + 64
    rw [e5]; omega

/-- The result array after the region: the transform of the arrays the region finds. -/
theorem final (c : Dev nD) :
    (dat0 V c).arrAt 2 cfg0.N = (mm1 (V c main_arg0) (V c main_arg2) : Buf (Elt Ideal) ((c : Thread nD τ).loc main_v31)) :=
  (dat0 V c).arrAt_eq_of_cover 2 _ (fun t _ => flushed_eq V c t) cover

end Cert.KernelIdeal.KMat0

end
-- ==== Proof.KMat1.lean ====
/-
  The second dense transform, as the pipelined region leaves it.

  The region's grid has 10 points; point t reads rows 10000·t … 10000·t + 9999 of the left operand and the
  whole right operand, multiplies them (the left block first cast to its own shape, a no-op) on the matrix unit into a zero accumulator (the operands rounded to
  bf16 first, which changes nothing at the exact extended reals), and writes the product back as rows
  10000·t … 10000·t + 9999 of the result.  So entry (r, c) of the result array ends as the sum over the
  contracted axis of left(r, q) · right(q, c): the ten blocks tile the array, and each block is the
  restriction of that one function.
-/
import proofs.«166392_j25804163514759_2_alg».proof.Proof.Gen.KernelIdeal.Frame
import proofs.«166392_j25804163514759_2_alg».proof.Proof.Spec
import proofs.«166392_j25804163514759_2_alg».proof.Proof.LibDense
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.KMat1

open Cert.KernelIdeal Cert.KernelIdeal.Gen Cert.Gcn
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem zero_off : (![0, 0] : Fin 2 → Nat) = fun _ => 0 := funext fun a => by fin_cases a <;> rfl

/-! ## The block product at an entry -/

theorem lhs_row (i : S10000x1.Idx) (q : dot_S10000x64_S64x1_S10000x1_1_0_0_1_n_n.contr.Idx) : (dot_S10000x64_S64x1_S10000x1_1_0_0_1_n_n.lhsIdx i q 0).val = (i 0).val := by
  simp [DotDims.lhsIdx, dot_S10000x64_S64x1_S10000x1_1_0_0_1_n_n]; rfl
theorem lhs_col (i : S10000x1.Idx) (q : dot_S10000x64_S64x1_S10000x1_1_0_0_1_n_n.contr.Idx) : (dot_S10000x64_S64x1_S10000x1_1_0_0_1_n_n.lhsIdx i q 1).val = (q ⟨0, by decide⟩).val := by
  simp [DotDims.lhsIdx, dot_S10000x64_S64x1_S10000x1_1_0_0_1_n_n]; rfl
theorem rhs_row (i : S10000x1.Idx) (q : dot_S10000x64_S64x1_S10000x1_1_0_0_1_n_n.contr.Idx) : (dot_S10000x64_S64x1_S10000x1_1_0_0_1_n_n.rhsIdx i q 0).val = (q ⟨0, by decide⟩).val := by
  simp [DotDims.rhsIdx, dot_S10000x64_S64x1_S10000x1_1_0_0_1_n_n]; rfl
theorem rhs_col (i : S10000x1.Idx) (q : dot_S10000x64_S64x1_S10000x1_1_0_0_1_n_n.contr.Idx) : (dot_S10000x64_S64x1_S10000x1_1_0_0_1_n_n.rhsIdx i q 1).val = (i 1).val := by
  simp [DotDims.rhsIdx, dot_S10000x64_S64x1_S10000x1_1_0_0_1_n_n]
  have h : (i 1).val < 1 := (i 1).isLt
  omega

/-- The body's stored value at entry (p, c) of the block: the sum over the contracted axis. -/
theorem pay_apply (x0 : Vec Ideal S10000x64 .f32) (x1 : Vec Ideal S64x1 .f32) (p : Fin 10000) (c : Fin 1) :
    k1_pay1 x0 x1 (ix2 p c) = ∑ q : Fin 64, x0 (ix2 p q) * x1 (ix2 q c) := by
  unfold k1_pay1
  refine (Cert.LibDense.matmul_zero_apply dot_S10000x64_S64x1_S10000x1_1_0_0_1_n_n rfl rfl lhs_row lhs_col rhs_row rhs_col none _ _ p c).trans ?_
  refine Finset.sum_congr rfl fun q _ => ?_
  show (shapeCast S10000x64 x0 shapeCasts_S10000x64_S10000x64) (ix2 p q) * x1 (ix2 q c) = _
  rw [shapeCast_self]

/-- A block product against the whole-array transform: when the left block is rows 10000·n … of `x` and the right
    block is `w`, entry j of the block product is entry i of the transform, for i = (10000·n + j₀, j₁). -/
theorem block_eq (x : (⟨S100000x64, .f32⟩ : BufTy).Contents (Elt Ideal)) (w : (⟨S64x1, .f32⟩ : BufTy).Contents (Elt Ideal))
    (x0 : Vec Ideal S10000x64 .f32) (x1 : Vec Ideal S64x1 .f32) (n : Nat)
    (h0 : ∀ (p : Fin 10000) (q : Fin 64) (k : S100000x64.Idx), (k 0).val = n * 10000 + p.val → (k 1).val = q.val → x0 (ix2 p q) = x k)
    (h1 : ∀ (q : Fin 64) (c : Fin 1), x1 (ix2 q c) = w (ix2 q c))
    (j : S10000x1.Idx) (i : S100000x1.Idx) (hi0 : (i 0).val = n * 10000 + (j 0).val) (hi1 : (i 1).val = (j 1).val) :
    k1_pay1 x0 x1 j = mm2 x w i := by
  obtain ⟨p, c, rfl⟩ : ∃ (p : Fin 10000) (c : Fin 1), j = ix2 p c := ⟨j 0, j 1, eq_ix2 j⟩
  rw [pay_apply]
  unfold mm2
  refine Finset.sum_congr rfl fun q _ => ?_
  rw [h0 p q (ix2 (i 0) q) hi0 rfl, h1 q c]
  have e : (ix2 q (i 1) : S64x1.Idx) = ix2 q c := funext fun a => Fin.ext (by
    match a with
    | ⟨0, _⟩ => rfl
    | ⟨1, _⟩ => exact hi1)
  rw [e]

/-! ## From the blocks to the array -/

/-- The printed index maps over the grid: the left operand's and the result's blocks move down with the point, the
    right operand's block stays. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point `t` writes back is block `t` of the transform of the arrays the region finds. -/
theorem flushed_eq (c : Dev nD) (t : Fin cfg1.N) :
    (dat1 V c).flushed 2 t = ((cfg1.win 2).blk t).view.read (Elt Ideal)
      (mm2 (V c main_v48) (V c main_arg4) : Buf (Elt Ideal) ((c : Thread nD τ).loc main_v49)) := by
  show (cfg1.win 2).cut (grid1.coords t) ((dat1 V c).after 2 t) = _
  rw [after1_2]
  unfold out1_2
  rw [View.canon_unit_zero zero_off]
  simp only [View.ld_unit_zero (S := S10000x64) zero_off, View.ld_unit_zero (S := S64x1) zero_off]
  obtain ⟨e0, e1, e2, e3, e4, e5⟩ := idx_facts t
  funext j
  refine block_eq (V c main_v48) (V c main_arg4) _ _ t.val ?_ ?_ j _ ?_ ?_
  · intro p q k hk0 hk1
    show V c main_v48 (((cfg1.win 0).blk t).view.emb (ix2 p q)) = V c main_v48 k
    refine congrArg _ (funext fun a => Fin.ext ?_)
    match a with
    | ⟨0, _⟩ => show win1_0.index t (0 : Fin 2) * 10000 + 1 * p.val = (k 0).val; rw [e0, hk0]; omega
    | ⟨1, _⟩ => show win1_0.index t (1 : Fin 2) * 64 + 1 * q.val = (k 1).val; rw [e1, hk1]; omega
  · intro q c'
    show V c main_arg4 (((cfg1.win 1).blk t).view.emb (ix2 q c')) = V c main_arg4 (ix2 q c')
    refine congrArg _ (funext fun a => Fin.ext ?_)
    match a with
    | ⟨0, _⟩ => show win1_1.index t (0 : Fin 2) * 64 + 1 * q.val = q.val; rw [e2]; omega
    | ⟨1, _⟩ => show win1_1.index t (1 : Fin 2) * 1 + 1 * c'.val = c'.val; rw [e3]; omega
  · show win1_2.index t (0 : Fin 2) * 10000 + 1 * (j 0).val = t.val * 10000 + (j 0).val; rw [e4]; omega
  · show win1_2.index t (1 : Fin 2) * 1 + 1 * (j 1).val = (j 1).val; rw [e5]; omega

/-- An index of the result array is in point `t`'s block iff each coordinate is in the block's range on its axis. -/
theorem mem_blk (t : Fin cfg1.N) (i : S100000x1.Idx) :
    i ∈ ((cfg1.win 2).blk t).view.set ↔ ∀ a : Fin 2, win1_2.index t a * S10000x1.size a ≤ (i a).val ∧ (i a).val < win1_2.index t a * S10000x1.size a + S10000x1.size a := by
  show i ∈ ((View.whole main_v49).slice (win1_2.rect t)).set ↔ _
  rw [View.set_slice_whole, Rect.mem_set_unit]
  exact Iff.rfl

/-- Every row of the result array is in the block of the point that owns it: row r belongs to point r / 10000. -/
theorem cover (i : S100000x1.Idx) : ∃ t : Fin cfg1.N, (cfg1.win 2).flush t = true ∧ i ∈ ((cfg1.win 2).blk t).view.set := by
  have hi0 : (i 0).val < 100000 := (i 0).isLt
  have hi1 : (i 1).val < 1 := (i 1).isLt
  have hN : cfg1.N = 10 := N_1
  refine ⟨⟨(i 0).val / 10000, by rw [hN]; omega⟩, flush1_2 _, ?_⟩
  rw [mem_blk]
  obtain ⟨-, -, -, -, e4, e5⟩ := idx_facts ⟨(i 0).val / 10000, by rw [hN]; omega⟩
  intro a
  match a with
  | ⟨0, _⟩ =>
    show win1_2.index _ (0 : Fin 2) * 10000 ≤ (i 0).val ∧ (i 0).val < win1_2.index _ (0 : Fin 2) * 10000 + 10000
    rw [e4]; show (i 0).val / 10000 * 10000 ≤ (i 0).val ∧ (i 0).val < (i 0).val / 10000 * 10000 + 10000; omega
  | ⟨1, _⟩ =>
    show win1_2.index _ (1 : Fin 2) * 1 ≤ (i 1).val ∧ (i 1).val < win1_2.index _ (1 : Fin 2) * 1 + 1
    rw [e5]; omega

/-- The result array after the region: the transform of the arrays the region finds. -/
theorem final (c : Dev nD) :
    (dat1 V c).arrAt 2 cfg1.N = (mm2 (V c main_v48) (V c main_arg4) : Buf (Elt Ideal) ((c : Thread nD τ).loc main_v49)) :=
  (dat1 V c).arrAt_eq_of_cover 2 _ (fun t _ => flushed_eq V c t) cover

end Cert.KernelIdeal.KMat1

end
-- ==== Proof.KValue.lean ====
/-
  The idealized kernel's result is the two-layer graph convolution of its arguments.

  The buffers at the eight segment boundaries are followed from the launch memory to the result: the three
  stretches before the first region leave the endpoints, the weights and the untouched arguments; the first
  region leaves x · W1 in its result array and every other buffer as it found it; the next two stretches leave
  the rectified first aggregation; the second region leaves its product with W2; the last stretch the second
  aggregation.
-/
import proofs.«166392_j25804163514759_2_alg».proof.Proof.Gen.KernelIdeal.Frame
import proofs.«166392_j25804163514759_2_alg».proof.Proof.Spec
import proofs.«166392_j25804163514759_2_alg».proof.Proof.KHost
import proofs.«166392_j25804163514759_2_alg».proof.Proof.KMat0
import proofs.«166392_j25804163514759_2_alg».proof.Proof.KMat1

set_option maxRecDepth 16384

noncomputable section

namespace Cert.KernelIdeal.KValue

open Cert.KernelIdeal Cert.KernelIdeal.Gen Cert.Gcn
open Idealize.ShloMosaic Idealize.ShloMosaic.TcCoe Idealize.SL.Sem Idealize.ShloMosaic.StableHlo

variable (m : (ℓ : Loc nD τ sig) → Buf (Elt Ideal) ℓ) (ρ : Dev nD → PrngReg)

/-! ## At the first region's entry -/

theorem in0_src (c : Dev nD) : W3 m ρ c (Proc.devRef .tc main_v5) = srcOf (m ((c : Thread nD τ).loc main_arg1)) := KHost.pre_src (W0 m ρ c)
theorem in0_dst (c : Dev nD) : W3 m ρ c (Proc.devRef .tc main_v6) = dstOf (m ((c : Thread nD τ).loc main_arg1)) := KHost.pre_dst (W0 m ρ c)
theorem in0_norm (c : Dev nD) : W3 m ρ c (Proc.devRef .tc main_v30) = normOf (srcOf (m ((c : Thread nD τ).loc main_arg1))) (dstOf (m ((c : Thread nD τ).loc main_arg1))) :=
  KHost.pre_norm (W0 m ρ c)
theorem in0_arg0 (c : Dev nD) : W3 m ρ c (Proc.devRef .tc main_arg0) = (m ((c : Thread nD τ).loc main_arg0)) := KHost.pre_keep_arg0 (W0 m ρ c)
theorem in0_arg2 (c : Dev nD) : W3 m ρ c (Proc.devRef .tc main_arg2) = (m ((c : Thread nD τ).loc main_arg2)) := KHost.pre_keep_arg2 (W0 m ρ c)
theorem in0_arg3 (c : Dev nD) : W3 m ρ c (Proc.devRef .tc main_arg3) = (m ((c : Thread nD τ).loc main_arg3)) := KHost.pre_keep_arg3 (W0 m ρ c)
theorem in0_arg4 (c : Dev nD) : W3 m ρ c (Proc.devRef .tc main_arg4) = (m ((c : Thread nD τ).loc main_arg4)) := KHost.pre_keep_arg4 (W0 m ρ c)
theorem in0_arg5 (c : Dev nD) : W3 m ρ c (Proc.devRef .tc main_arg5) = (m ((c : Thread nD τ).loc main_arg5)) := KHost.pre_keep_arg5 (W0 m ρ c)

/-! ## At the first region's exit -/

/-- The first region's result array: x · W1. -/
theorem out0_mm (c : Dev nD) : W4 m ρ c (Proc.devRef .tc main_v31) = mm1 (m ((c : Thread nD τ).loc main_arg0)) (m ((c : Thread nD τ).loc main_arg2)) :=
  (W4_arr m ρ c 2).trans ((KMat0.final (V3 m ρ) c).trans (congrArg₂ mm1 (in0_arg0 m ρ c) (in0_arg2 m ρ c)))

theorem out0_src (c : Dev nD) : W4 m ρ c (Proc.devRef .tc main_v5) = srcOf (m ((c : Thread nD τ).loc main_arg1)) :=
  (W4_of_ne m ρ c main_v5 (by decide)).trans (in0_src m ρ c)
theorem out0_dst (c : Dev nD) : W4 m ρ c (Proc.devRef .tc main_v6) = dstOf (m ((c : Thread nD τ).loc main_arg1)) :=
  (W4_of_ne m ρ c main_v6 (by decide)).trans (in0_dst m ρ c)
theorem out0_norm (c : Dev nD) : W4 m ρ c (Proc.devRef .tc main_v30) = normOf (srcOf (m ((c : Thread nD τ).loc main_arg1))) (dstOf (m ((c : Thread nD τ).loc main_arg1))) :=
  (W4_of_ne m ρ c main_v30 (by decide)).trans (in0_norm m ρ c)
theorem out0_arg3 (c : Dev nD) : W4 m ρ c (Proc.devRef .tc main_arg3) = (m ((c : Thread nD τ).loc main_arg3)) :=
  (W4_of_ne m ρ c main_arg3 (by decide)).trans (in0_arg3 m ρ c)
theorem out0_arg4 (c : Dev nD) : W4 m ρ c (Proc.devRef .tc main_arg4) = (m ((c : Thread nD τ).loc main_arg4)) :=
  (W4_of_ne m ρ c main_arg4 (by decide)).trans (in0_arg4 m ρ c)
theorem out0_arg5 (c : Dev nD) : W4 m ρ c (Proc.devRef .tc main_arg5) = (m ((c : Thread nD τ).loc main_arg5)) :=
  (W4_of_ne m ρ c main_arg5 (by decide)).trans (in0_arg5 m ρ c)

/-! ## At the second region's entry -/

/-- The hidden features: the rectified first aggregation of x · W1. -/
def hidden (c : Dev nD) : (⟨S100000x64, .f32⟩ : BufTy).Contents (Elt Ideal) :=
  relu64 (agg64 (mm1 (m ((c : Thread nD τ).loc main_arg0)) (m ((c : Thread nD τ).loc main_arg2))) (srcOf (m ((c : Thread nD τ).loc main_arg1))) (dstOf (m ((c : Thread nD τ).loc main_arg1)))
    (normOf (srcOf (m ((c : Thread nD τ).loc main_arg1))) (dstOf (m ((c : Thread nD τ).loc main_arg1)))) (m ((c : Thread nD τ).loc main_arg3)))

theorem in1_hidden (c : Dev nD) : W6 m ρ c (Proc.devRef .tc main_v48) = hidden m c := by
  refine (KHost.mid_hidden (W4 m ρ c)).trans ?_
  rw [out0_mm, out0_src, out0_dst, out0_norm, out0_arg3]
  rfl
theorem in1_src (c : Dev nD) : W6 m ρ c (Proc.devRef .tc main_v5) = srcOf (m ((c : Thread nD τ).loc main_arg1)) :=
  (KHost.mid_keep_v5 (W4 m ρ c)).trans (out0_src m ρ c)
theorem in1_dst (c : Dev nD) : W6 m ρ c (Proc.devRef .tc main_v6) = dstOf (m ((c : Thread nD τ).loc main_arg1)) :=
  (KHost.mid_keep_v6 (W4 m ρ c)).trans (out0_dst m ρ c)
theorem in1_norm (c : Dev nD) : W6 m ρ c (Proc.devRef .tc main_v30) = normOf (srcOf (m ((c : Thread nD τ).loc main_arg1))) (dstOf (m ((c : Thread nD τ).loc main_arg1))) :=
  (KHost.mid_keep_v30 (W4 m ρ c)).trans (out0_norm m ρ c)
theorem in1_arg4 (c : Dev nD) : W6 m ρ c (Proc.devRef .tc main_arg4) = (m ((c : Thread nD τ).loc main_arg4)) :=
  (KHost.mid_keep_arg4 (W4 m ρ c)).trans (out0_arg4 m ρ c)
theorem in1_arg5 (c : Dev nD) : W6 m ρ c (Proc.devRef .tc main_arg5) = (m ((c : Thread nD τ).loc main_arg5)) :=
  (KHost.mid_keep_arg5 (W4 m ρ c)).trans (out0_arg5 m ρ c)

/-! ## At the second region's exit, and the result -/

theorem out1_mm (c : Dev nD) : W7 m ρ c (Proc.devRef .tc main_v49) = mm2 (hidden m c) (m ((c : Thread nD τ).loc main_arg4)) :=
  (W7_arr m ρ c 2).trans ((KMat1.final (V6 m ρ) c).trans (congrArg₂ mm2 (in1_hidden m ρ c) (in1_arg4 m ρ c)))
theorem out1_src (c : Dev nD) : W7 m ρ c (Proc.devRef .tc main_v5) = srcOf (m ((c : Thread nD τ).loc main_arg1)) :=
  (W7_of_ne m ρ c main_v5 (by decide)).trans (in1_src m ρ c)
theorem out1_dst (c : Dev nD) : W7 m ρ c (Proc.devRef .tc main_v6) = dstOf (m ((c : Thread nD τ).loc main_arg1)) :=
  (W7_of_ne m ρ c main_v6 (by decide)).trans (in1_dst m ρ c)
theorem out1_norm (c : Dev nD) : W7 m ρ c (Proc.devRef .tc main_v30) = normOf (srcOf (m ((c : Thread nD τ).loc main_arg1))) (dstOf (m ((c : Thread nD τ).loc main_arg1))) :=
  (W7_of_ne m ρ c main_v30 (by decide)).trans (in1_norm m ρ c)
theorem out1_arg5 (c : Dev nD) : W7 m ρ c (Proc.devRef .tc main_arg5) = (m ((c : Thread nD τ).loc main_arg5)) :=
  (W7_of_ne m ρ c main_arg5 (by decide)).trans (in1_arg5 m ρ c)

/-- The result buffer after the last stretch: the network of the six arguments. -/
theorem result (c : Dev nD) : W8 m ρ c (Proc.devRef .tc main_v64)
    = gcn (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (KHost.tail_out (W7 m ρ c)).trans ?_
  rw [out1_mm, out1_src, out1_dst, out1_norm, out1_arg5]
  rfl

end Cert.KernelIdeal.KValue

end
-- ==== Proof.RefValue.lean ====
/-
  The idealized reference's result as the two-layer graph convolution of its arguments.

  The reference is one straight line of 122 host operations, read here in nine stretches: the edge endpoints with the
  self-loops and the in-degrees; the selection of deg^(-1/2) where the degree is positive; the edge weights; the first
  dense transform with its aggregation; the rectifier; then the endpoints, the selection and the weights a second time
  (from the same two rows of the edge list, so the same values); and the second dense transform with its aggregation.
  Each stretch is read for any contents of the buffers it starts from, and the nine compose to `Cert.Gcn.gcn` of the
  arguments.  A host `dot_general` contracting the left operand's columns against the right operand's rows is, entry
  by entry, the plain sum over the contracted axis.  No operation of the line writes an argument buffer.
-/
import proofs.«166392_j25804163514759_2_alg».proof.Proof.RefRunGen
import proofs.«166392_j25804163514759_2_alg».proof.Proof.Spec
import proofs.«166392_j25804163514759_2_alg».proof.Proof.LibDense
import Idealize.ShloMosaic.Lib.ValueIdx
import Idealize.ShloMosaic.PureOps.Ideal.Laws

set_option maxRecDepth 16384

noncomputable section

open scoped BigOperators

namespace Cert.ReferenceIdeal.RefValue

open Cert.ReferenceIdeal Cert.ReferenceIdeal.Gen Cert.Gcn
open Idealize.ShloMosaic Idealize.ShloMosaic.TcCoe Idealize.SL.Sem Idealize.ShloMosaic.StableHlo Idealize.ShloMosaic.ValueIdx

variable [Cert.KernelIdeal.Facts₀]

variable {F : FTy → Type} [FloatOps F]

/-! ## The program's line of operations in nine stretches -/

/-- Operations 1–20: the endpoints with the self-loops, the in-degrees, where they are positive, their power -1/2. -/
abbrev ops0 : List (HloOp τ sig (Elt F)) :=
  [ unary main_arg1 main_v0 ((extractStridedSlice S1x3200000 ![0, 0] · slices_S2x3200000_S1x3200000_0_0) : (⟨S2x3200000, .i32⟩ : BufTy).Contents (Elt F) → (⟨S1x3200000, .i32⟩ : BufTy).Contents (Elt F)),
    reshape main_v0 main_v1 rfl shapeCasts_S1x3200000_S3200000,
    unary main_arg1 main_v2 ((extractStridedSlice S1x3200000 ![1, 0] · slices_S2x3200000_S1x3200000_1_0) : (⟨S2x3200000, .i32⟩ : BufTy).Contents (Elt F) → (⟨S1x3200000, .i32⟩ : BufTy).Contents (Elt F)),
    reshape main_v2 main_v3 rfl shapeCasts_S1x3200000_S3200000,
    nullary main_v4 (iotaInDim S100000 32 0),
    binary main_v1 main_v4 main_v5 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    binary main_v3 main_v4 main_v6 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    nullary main_cst (constant S_ .f32 0x3F800000#32),
    unary main_cst main_v7 (broadcastInDim S3300000 ![] bcast_S_S3300000 : (⟨S_, .f32⟩ : BufTy).Contents (Elt F) → (⟨S3300000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S3300000x1 ![0] bcast_S3300000_S3300000x1_0 : (⟨S3300000, .i32⟩ : BufTy).Contents (Elt F) → (⟨S3300000x1, .i32⟩ : BufTy).Contents (Elt F)),
    ternary main_v8 main_v9 main_v7 main_v10 ((fun x i u => Host.scatterAdd scatter_S100000_S3300000x1_S3300000_n_0_0_1 x i u) : (⟨S100000, .f32⟩ : BufTy).Contents (Elt F) → (⟨S3300000x1, .i32⟩ : BufTy).Contents (Elt F) → (⟨S3300000, .f32⟩ : BufTy).Contents (Elt F) → (⟨S100000, .f32⟩ : BufTy).Contents (Elt F)),
    nullary main_cst_1 (constant S_ .f32 0x00000000#32),
    unary main_cst_1 main_v11 (broadcastInDim S100000 ![] bcast_S_S100000 : (⟨S_, .f32⟩ : BufTy).Contents (Elt F) → (⟨S100000, .f32⟩ : BufTy).Contents (Elt F)),
    binary main_v10 main_v11 main_v12 (cmpf .ogt : (⟨S100000, .f32⟩ : BufTy).Contents (Elt F) → (⟨S100000, .f32⟩ : BufTy).Contents (Elt F) → (⟨S100000, .i1⟩ : BufTy).Contents (Elt F)),
    nullary main_cst_2 (constant S_ .f32 0xBF000000#32),
    unary main_cst_2 main_v13 (broadcastInDim S100000 ![] bcast_S_S100000 : (⟨S_, .f32⟩ : BufTy).Contents (Elt F) → (⟨S100000, .f32⟩ : BufTy).Contents (Elt F)),
    binary main_v10 main_v13 main_v14 (Host.powf : (⟨S100000, .f32⟩ : BufTy).Contents (Elt F) → (⟨S100000, .f32⟩ : BufTy).Contents (Elt F) → (⟨S100000, .f32⟩ : BufTy).Contents (Elt F)),
    nullary main_cst_3 (constant S_ .f32 0x00000000#32) ]

/-- Operations 21–23: the selection between the power and zero. -/
abbrev ops1 : List (HloOp τ sig (Elt F)) :=
  [ TRef.unary (TRef.of (T := ⟨S_, .f32⟩) main_cst_3) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v12) (TRef.of (T := ⟨S100000, .f32⟩) main_v14) (TRef.of (T := ⟨S100000, .f32⟩) main_call0_v1) (TRef.of (T := ⟨S100000, .f32⟩) main_v15) select ]

/-- Operations 24–42: the edge weights. -/
abbrev ops2 : List (HloOp τ sig (Elt F)) :=
  [ nullary main_c (constantI S_ 32 0#32),
    unary main_c main_v16 (broadcastInDim S3300000 ![] bcast_S_S3300000 : (⟨S_, .i32⟩ : BufTy).Contents (Elt F) → (⟨S3300000, .i32⟩ : BufTy).Contents (Elt F)),
    binary main_v5 main_v16 main_v17 (cmpi .slt : (⟨S3300000, .i32⟩ : BufTy).Contents (Elt F) → (⟨S3300000, .i32⟩ : BufTy).Contents (Elt F) → (⟨S3300000, .i1⟩ : BufTy).Contents (Elt F)),
    nullary main_c_4 (constantI S_ 32 100000#32),
    unary main_c_4 main_v18 (broadcastInDim S3300000 ![] bcast_S_S3300000 : (⟨S_, .i32⟩ : BufTy).Contents (Elt F) → (⟨S3300000, .i32⟩ : BufTy).Contents (Elt F)),
    binary main_v5 main_v18 main_v19 (addi : (⟨S3300000, .i32⟩ : BufTy).Contents (Elt F) → (⟨S3300000, .i32⟩ : BufTy).Contents (Elt F) → (⟨S3300000, .i32⟩ : BufTy).Contents (Elt F)),
    ternary main_v17 main_v19 main_v5 main_v20 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v20 main_v21 (broadcastInDim S3300000x1 ![0] bcast_S3300000_S3300000x1_0 : (⟨S3300000, .i32⟩ : BufTy).Contents (Elt F) → (⟨S3300000x1, .i32⟩ : BufTy).Contents (Elt F)),
    binary main_v15 main_v21 main_v22 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    nullary main_c_5 (constantI S_ 32 0#32),
    unary main_c_5 main_v23 (broadcastInDim S3300000 ![] bcast_S_S3300000 : (⟨S_, .i32⟩ : BufTy).Contents (Elt F) → (⟨S3300000, .i32⟩ : BufTy).Contents (Elt F)),
    binary main_v6 main_v23 main_v24 (cmpi .slt : (⟨S3300000, .i32⟩ : BufTy).Contents (Elt F) → (⟨S3300000, .i32⟩ : BufTy).Contents (Elt F) → (⟨S3300000, .i1⟩ : BufTy).Contents (Elt F)),
    nullary main_c_6 (constantI S_ 32 100000#32),
    unary main_c_6 main_v25 (broadcastInDim S3300000 ![] bcast_S_S3300000 : (⟨S_, .i32⟩ : BufTy).Contents (Elt F) → (⟨S3300000, .i32⟩ : BufTy).Contents (Elt F)),
    binary main_v6 main_v25 main_v26 (addi : (⟨S3300000, .i32⟩ : BufTy).Contents (Elt F) → (⟨S3300000, .i32⟩ : BufTy).Contents (Elt F) → (⟨S3300000, .i32⟩ : BufTy).Contents (Elt F)),
    ternary main_v24 main_v26 main_v6 main_v27 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v27 main_v28 (broadcastInDim S3300000x1 ![0] bcast_S3300000_S3300000x1_0 : (⟨S3300000, .i32⟩ : BufTy).Contents (Elt F) → (⟨S3300000x1, .i32⟩ : BufTy).Contents (Elt F)),
    binary main_v15 main_v28 main_v29 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    binary main_v22 main_v29 main_v30 (mulf : (⟨S3300000, .f32⟩ : BufTy).Contents (Elt F) → (⟨S3300000, .f32⟩ : BufTy).Contents (Elt F) → (⟨S3300000, .f32⟩ : BufTy).Contents (Elt F)) ]

/-- Operations 43–62: the first dense transform and its aggregation. -/
abbrev ops3 : List (HloOp τ sig (Elt F)) :=
  [ binary main_arg0 main_arg2 main_v31 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    nullary main_c_7 (constantI S_ 32 0#32),
    unary main_c_7 main_v32 (broadcastInDim S3300000 ![] bcast_S_S3300000 : (⟨S_, .i32⟩ : BufTy).Contents (Elt F) → (⟨S3300000, .i32⟩ : BufTy).Contents (Elt F)),
    binary main_v5 main_v32 main_v33 (cmpi .slt : (⟨S3300000, .i32⟩ : BufTy).Contents (Elt F) → (⟨S3300000, .i32⟩ : BufTy).Contents (Elt F) → (⟨S3300000, .i1⟩ : BufTy).Contents (Elt F)),
    nullary main_c_8 (constantI S_ 32 100000#32),
    unary main_c_8 main_v34 (broadcastInDim S3300000 ![] bcast_S_S3300000 : (⟨S_, .i32⟩ : BufTy).Contents (Elt F) → (⟨S3300000, .i32⟩ : BufTy).Contents (Elt F)),
    binary main_v5 main_v34 main_v35 (addi : (⟨S3300000, .i32⟩ : BufTy).Contents (Elt F) → (⟨S3300000, .i32⟩ : BufTy).Contents (Elt F) → (⟨S3300000, .i32⟩ : BufTy).Contents (Elt F)),
    ternary main_v33 main_v35 main_v5 main_v36 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v36 main_v37 (broadcastInDim S3300000x1 ![0] bcast_S3300000_S3300000x1_0 : (⟨S3300000, .i32⟩ : BufTy).Contents (Elt F) → (⟨S3300000x1, .i32⟩ : BufTy).Contents (Elt F)),
    binary main_v31 main_v37 main_v38 ((fun x i => Host.gather gather_S100000x64_S3300000x1_S3300000x64_1_0_n_n_0_1_164 x i) : (⟨S100000x64, .f32⟩ : BufTy).Contents (Elt F) → (⟨S3300000x1, .i32⟩ : BufTy).Contents (Elt F) → (⟨S3300000x64, .f32⟩ : BufTy).Contents (Elt F)),
    unary main_v30 main_v39 (broadcastInDim S3300000x1 ![0] bcast_S3300000_S3300000x1_0 : (⟨S3300000, .f32⟩ : BufTy).Contents (Elt F) → (⟨S3300000x1, .f32⟩ : BufTy).Contents (Elt F)),
    unary main_v39 main_v40 (broadcastInDim S3300000x64 ![0, 1] bcast_S3300000x1_S3300000x64_0_1 : (⟨S3300000x1, .f32⟩ : BufTy).Contents (Elt F) → (⟨S3300000x64, .f32⟩ : BufTy).Contents (Elt F)),
    binary main_v38 main_v40 main_v41 (mulf : (⟨S3300000x64, .f32⟩ : BufTy).Contents (Elt F) → (⟨S3300000x64, .f32⟩ : BufTy).Contents (Elt F) → (⟨S3300000x64, .f32⟩ : BufTy).Contents (Elt F)),
    nullary main_cst_9 (constant S_ .f32 0x00000000#32),
    unary main_cst_9 main_v42 (broadcastInDim S100000x64 ![] bcast_S_S100000x64 : (⟨S_, .f32⟩ : BufTy).Contents (Elt F) → (⟨S100000x64, .f32⟩ : BufTy).Contents (Elt F)),
    unary main_v6 main_v43 (broadcastInDim S3300000x1 ![0] bcast_S3300000_S3300000x1_0 : (⟨S3300000, .i32⟩ : BufTy).Contents (Elt F) → (⟨S3300000x1, .i32⟩ : BufTy).Contents (Elt F)),
    ternary main_v42 main_v43 main_v41 main_v44 ((fun x i u => Host.scatterAdd scatter_S100000x64_S3300000x1_S3300000x64_1_0_0_1 x i u) : (⟨S100000x64, .f32⟩ : BufTy).Contents (Elt F) → (⟨S3300000x1, .i32⟩ : BufTy).Contents (Elt F) → (⟨S3300000x64, .f32⟩ : BufTy).Contents (Elt F) → (⟨S100000x64, .f32⟩ : BufTy).Contents (Elt F)),
    unary main_arg3 main_v45 (broadcastInDim S1x64 ![1] bcast_S64_S1x64_1 : (⟨S64, .f32⟩ : BufTy).Contents (Elt F) → (⟨S1x64, .f32⟩ : BufTy).Contents (Elt F)),
    unary main_v45 main_v46 (broadcastInDim S100000x64 ![0, 1] bcast_S1x64_S100000x64_0_1 : (⟨S1x64, .f32⟩ : BufTy).Contents (Elt F) → (⟨S100000x64, .f32⟩ : BufTy).Contents (Elt F)),
    binary main_v44 main_v46 main_v47 (addf : (⟨S100000x64, .f32⟩ : BufTy).Contents (Elt F) → (⟨S100000x64, .f32⟩ : BufTy).Contents (Elt F) → (⟨S100000x64, .f32⟩ : BufTy).Contents (Elt F)) ]

/-- Operations 63–65: the rectifier. -/
abbrev ops4 : List (HloOp τ sig (Elt F)) :=
  [ TRef.nullary (TRef.of (T := ⟨S_, .f32⟩) main_call1_cst) (constant S_ .f32 0x00000000#32),
    TRef.unary (TRef.of (T := ⟨S_, .f32⟩) main_call1_cst) (TRef.of (T := ⟨S100000x64, .f32⟩) main_call1_v0) (broadcastInDim S100000x64 ![] bcast_S_S100000x64),
    TRef.binary (TRef.of (T := ⟨S100000x64, .f32⟩) main_v47) (TRef.of (T := ⟨S100000x64, .f32⟩) main_call1_v0) (TRef.of (T := ⟨S100000x64, .f32⟩) main_v48) maximumf ]

/-- Operations 66–81: the endpoints with the self-loops and the in-degrees, once more. -/
abbrev ops5 : List (HloOp τ sig (Elt F)) :=
  [ nullary main_v49 (iotaInDim S100000 32 0),
    binary main_v1 main_v49 main_v50 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    binary main_v3 main_v49 main_v51 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    nullary main_cst_10 (constant S_ .f32 0x3F800000#32),
    unary main_cst_10 main_v52 (broadcastInDim S3300000 ![] bcast_S_S3300000 : (⟨S_, .f32⟩ : BufTy).Contents (Elt F) → (⟨S3300000, .f32⟩ : BufTy).Contents (Elt F)),
    nullary main_cst_11 (constant S_ .f32 0x00000000#32),
    unary main_cst_11 main_v53 (broadcastInDim S100000 ![] bcast_S_S100000 : (⟨S_, .f32⟩ : BufTy).Contents (Elt F) → (⟨S100000, .f32⟩ : BufTy).Contents (Elt F)),
    unary main_v51 main_v54 (broadcastInDim S3300000x1 ![0] bcast_S3300000_S3300000x1_0 : (⟨S3300000, .i32⟩ : BufTy).Contents (Elt F) → (⟨S3300000x1, .i32⟩ : BufTy).Contents (Elt F)),
    ternary main_v53 main_v54 main_v52 main_v55 ((fun x i u => Host.scatterAdd scatter_S100000_S3300000x1_S3300000_n_0_0_1 x i u) : (⟨S100000, .f32⟩ : BufTy).Contents (Elt F) → (⟨S3300000x1, .i32⟩ : BufTy).Contents (Elt F) → (⟨S3300000, .f32⟩ : BufTy).Contents (Elt F) → (⟨S100000, .f32⟩ : BufTy).Contents (Elt F)),
    nullary main_cst_12 (constant S_ .f32 0x00000000#32),
    unary main_cst_12 main_v56 (broadcastInDim S100000 ![] bcast_S_S100000 : (⟨S_, .f32⟩ : BufTy).Contents (Elt F) → (⟨S100000, .f32⟩ : BufTy).Contents (Elt F)),
    binary main_v55 main_v56 main_v57 (cmpf .ogt : (⟨S100000, .f32⟩ : BufTy).Contents (Elt F) → (⟨S100000, .f32⟩ : BufTy).Contents (Elt F) → (⟨S100000, .i1⟩ : BufTy).Contents (Elt F)),
    nullary main_cst_13 (constant S_ .f32 0xBF000000#32),
    unary main_cst_13 main_v58 (broadcastInDim S100000 ![] bcast_S_S100000 : (⟨S_, .f32⟩ : BufTy).Contents (Elt F) → (⟨S100000, .f32⟩ : BufTy).Contents (Elt F)),
    binary main_v55 main_v58 main_v59 (Host.powf : (⟨S100000, .f32⟩ : BufTy).Contents (Elt F) → (⟨S100000, .f32⟩ : BufTy).Contents (Elt F) → (⟨S100000, .f32⟩ : BufTy).Contents (Elt F)),
    nullary main_cst_14 (constant S_ .f32 0x00000000#32) ]

/-- Operations 82–84: the selection, once more. -/
abbrev ops6 : List (HloOp τ sig (Elt F)) :=
  [ TRef.unary (TRef.of (T := ⟨S_, .f32⟩) main_cst_14) (TRef.of (T := ⟨S_, .f32⟩) main_call2_v0) id,
    TRef.unary (TRef.of (T := ⟨S_, .f32⟩) main_call2_v0) (TRef.of (T := ⟨S100000, .f32⟩) main_call2_v1) (broadcastInDim S100000 ![] bcast_S_S100000),
    TRef.ternary (TRef.of (T := ⟨S100000, .i1⟩) main_v57) (TRef.of (T := ⟨S100000, .f32⟩) main_v59) (TRef.of (T := ⟨S100000, .f32⟩) main_call2_v1) (TRef.of (T := ⟨S100000, .f32⟩) main_v60) select ]

/-- Operations 85–103: the edge weights, once more. -/
abbrev ops7 : List (HloOp τ sig (Elt F)) :=
  [ nullary main_c_15 (constantI S_ 32 0#32),
    unary main_c_15 main_v61 (broadcastInDim S3300000 ![] bcast_S_S3300000 : (⟨S_, .i32⟩ : BufTy).Contents (Elt F) → (⟨S3300000, .i32⟩ : BufTy).Contents (Elt F)),
    binary main_v50 main_v61 main_v62 (cmpi .slt : (⟨S3300000, .i32⟩ : BufTy).Contents (Elt F) → (⟨S3300000, .i32⟩ : BufTy).Contents (Elt F) → (⟨S3300000, .i1⟩ : BufTy).Contents (Elt F)),
    nullary main_c_16 (constantI S_ 32 100000#32),
    unary main_c_16 main_v63 (broadcastInDim S3300000 ![] bcast_S_S3300000 : (⟨S_, .i32⟩ : BufTy).Contents (Elt F) → (⟨S3300000, .i32⟩ : BufTy).Contents (Elt F)),
    binary main_v50 main_v63 main_v64 (addi : (⟨S3300000, .i32⟩ : BufTy).Contents (Elt F) → (⟨S3300000, .i32⟩ : BufTy).Contents (Elt F) → (⟨S3300000, .i32⟩ : BufTy).Contents (Elt F)),
    ternary main_v62 main_v64 main_v50 main_v65 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v65 main_v66 (broadcastInDim S3300000x1 ![0] bcast_S3300000_S3300000x1_0 : (⟨S3300000, .i32⟩ : BufTy).Contents (Elt F) → (⟨S3300000x1, .i32⟩ : BufTy).Contents (Elt F)),
    binary main_v60 main_v66 main_v67 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    nullary main_c_17 (constantI S_ 32 0#32),
    unary main_c_17 main_v68 (broadcastInDim S3300000 ![] bcast_S_S3300000 : (⟨S_, .i32⟩ : BufTy).Contents (Elt F) → (⟨S3300000, .i32⟩ : BufTy).Contents (Elt F)),
    binary main_v51 main_v68 main_v69 (cmpi .slt : (⟨S3300000, .i32⟩ : BufTy).Contents (Elt F) → (⟨S3300000, .i32⟩ : BufTy).Contents (Elt F) → (⟨S3300000, .i1⟩ : BufTy).Contents (Elt F)),
    nullary main_c_18 (constantI S_ 32 100000#32),
    unary main_c_18 main_v70 (broadcastInDim S3300000 ![] bcast_S_S3300000 : (⟨S_, .i32⟩ : BufTy).Contents (Elt F) → (⟨S3300000, .i32⟩ : BufTy).Contents (Elt F)),
    binary main_v51 main_v70 main_v71 (addi : (⟨S3300000, .i32⟩ : BufTy).Contents (Elt F) → (⟨S3300000, .i32⟩ : BufTy).Contents (Elt F) → (⟨S3300000, .i32⟩ : BufTy).Contents (Elt F)),
    ternary main_v69 main_v71 main_v51 main_v72 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v72 main_v73 (broadcastInDim S3300000x1 ![0] bcast_S3300000_S3300000x1_0 : (⟨S3300000, .i32⟩ : BufTy).Contents (Elt F) → (⟨S3300000x1, .i32⟩ : BufTy).Contents (Elt F)),
    binary main_v60 main_v73 main_v74 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    binary main_v67 main_v74 main_v75 (mulf : (⟨S3300000, .f32⟩ : BufTy).Contents (Elt F) → (⟨S3300000, .f32⟩ : BufTy).Contents (Elt F) → (⟨S3300000, .f32⟩ : BufTy).Contents (Elt F)) ]

/-- Operations 104–122: the second dense transform and its aggregation. -/
abbrev ops8 : List (HloOp τ sig (Elt F)) :=
  [ binary main_v48 main_arg4 main_v76 ((fun l r => Host.dotGeneral dot_S100000x64_S64x1_S100000x1_1_0_0_1_n_n none l r) : (⟨S100000x64, .f32⟩ : BufTy).Contents (Elt F) → (⟨S64x1, .f32⟩ : BufTy).Contents (Elt F) → (⟨S100000x1, .f32⟩ : BufTy).Contents (Elt F)),
    nullary main_c_19 (constantI S_ 32 0#32),
    unary main_c_19 main_v77 (broadcastInDim S3300000 ![] bcast_S_S3300000 : (⟨S_, .i32⟩ : BufTy).Contents (Elt F) → (⟨S3300000, .i32⟩ : BufTy).Contents (Elt F)),
    binary main_v50 main_v77 main_v78 (cmpi .slt : (⟨S3300000, .i32⟩ : BufTy).Contents (Elt F) → (⟨S3300000, .i32⟩ : BufTy).Contents (Elt F) → (⟨S3300000, .i1⟩ : BufTy).Contents (Elt F)),
    nullary main_c_20 (constantI S_ 32 100000#32),
    unary main_c_20 main_v79 (broadcastInDim S3300000 ![] bcast_S_S3300000 : (⟨S_, .i32⟩ : BufTy).Contents (Elt F) → (⟨S3300000, .i32⟩ : BufTy).Contents (Elt F)),
    binary main_v50 main_v79 main_v80 (addi : (⟨S3300000, .i32⟩ : BufTy).Contents (Elt F) → (⟨S3300000, .i32⟩ : BufTy).Contents (Elt F) → (⟨S3300000, .i32⟩ : BufTy).Contents (Elt F)),
    ternary main_v78 main_v80 main_v50 main_v81 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v81 main_v82 (broadcastInDim S3300000x1 ![0] bcast_S3300000_S3300000x1_0 : (⟨S3300000, .i32⟩ : BufTy).Contents (Elt F) → (⟨S3300000x1, .i32⟩ : BufTy).Contents (Elt F)),
    binary main_v76 main_v82 main_v83 ((fun x i => Host.gather gather_S100000x1_S3300000x1_S3300000x1_1_0_n_n_0_1_11 x i) : (⟨S100000x1, .f32⟩ : BufTy).Contents (Elt F) → (⟨S3300000x1, .i32⟩ : BufTy).Contents (Elt F) → (⟨S3300000x1, .f32⟩ : BufTy).Contents (Elt F)),
    unary main_v75 main_v84 (broadcastInDim S3300000x1 ![0] bcast_S3300000_S3300000x1_0 : (⟨S3300000, .f32⟩ : BufTy).Contents (Elt F) → (⟨S3300000x1, .f32⟩ : BufTy).Contents (Elt F)),
    binary main_v83 main_v84 main_v85 (mulf : (⟨S3300000x1, .f32⟩ : BufTy).Contents (Elt F) → (⟨S3300000x1, .f32⟩ : BufTy).Contents (Elt F) → (⟨S3300000x1, .f32⟩ : BufTy).Contents (Elt F)),
    nullary main_cst_21 (constant S_ .f32 0x00000000#32),
    unary main_cst_21 main_v86 (broadcastInDim S100000x1 ![] bcast_S_S100000x1 : (⟨S_, .f32⟩ : BufTy).Contents (Elt F) → (⟨S100000x1, .f32⟩ : BufTy).Contents (Elt F)),
    unary main_v51 main_v87 (broadcastInDim S3300000x1 ![0] bcast_S3300000_S3300000x1_0 : (⟨S3300000, .i32⟩ : BufTy).Contents (Elt F) → (⟨S3300000x1, .i32⟩ : BufTy).Contents (Elt F)),
    ternary main_v86 main_v87 main_v85 main_v88 ((fun x i u => Host.scatterAdd scatter_S100000x1_S3300000x1_S3300000x1_1_0_0_1 x i u) : (⟨S100000x1, .f32⟩ : BufTy).Contents (Elt F) → (⟨S3300000x1, .i32⟩ : BufTy).Contents (Elt F) → (⟨S3300000x1, .f32⟩ : BufTy).Contents (Elt F) → (⟨S100000x1, .f32⟩ : BufTy).Contents (Elt F)),
    unary main_arg5 main_v89 (broadcastInDim S1x1 ![1] bcast_S1_S1x1_1 : (⟨S1, .f32⟩ : BufTy).Contents (Elt F) → (⟨S1x1, .f32⟩ : BufTy).Contents (Elt F)),
    unary main_v89 main_v90 (broadcastInDim S100000x1 ![0, 1] bcast_S1x1_S100000x1_0_1 : (⟨S1x1, .f32⟩ : BufTy).Contents (Elt F) → (⟨S100000x1, .f32⟩ : BufTy).Contents (Elt F)),
    binary main_v88 main_v90 main_v91 (addf : (⟨S100000x1, .f32⟩ : BufTy).Contents (Elt F) → (⟨S100000x1, .f32⟩ : BufTy).Contents (Elt F) → (⟨S100000x1, .f32⟩ : BufTy).Contents (Elt F)) ]

/-- The program's line of operations is the nine stretches in order. -/
theorem ops_split : (Cert.ReferenceIdeal.ValueP.ops : List (HloOp τ sig (Elt F)))
    = ops0 ++ (ops1 ++ (ops2 ++ (ops3 ++ (ops4 ++ (ops5 ++ (ops6 ++ (ops7 ++ ops8))))))) := rfl

variable (V : Valuation τ sig (Elt Ideal))

/-- Running two lines one after the other is running their concatenation. -/
theorem after_append (l₁ l₂ : List (HloOp τ sig (Elt Ideal))) (W : Valuation τ sig (Elt Ideal)) :
    after (l₁ ++ l₂) W = after l₂ (after l₁ W) := by
  induction l₁ generalizing W with
  | nil => rfl
  | cons op l ih => exact ih _

theorem after_ops :
    after Cert.ReferenceIdeal.ValueP.ops V
      = after ops8 (after ops7 (after ops6 (after ops5 (after ops4 (after ops3 (after ops2 (after ops1 (after ops0 V)))))))) := by
  rw [ops_split]
  simp only [after_append]

/-! ## What each stretch leaves, for any contents `V` it starts from -/

theorem r0_row0 : after ops0 V (Proc.devRef .tc main_v1) = row0 (V (Proc.devRef .tc main_arg1)) := by
  after_results
  rfl
theorem r0_row1 : after ops0 V (Proc.devRef .tc main_v3) = row1 (V (Proc.devRef .tc main_arg1)) := by
  after_results
  rfl
theorem r0_src : after ops0 V (Proc.devRef .tc main_v5) = srcOf (V (Proc.devRef .tc main_arg1)) := by
  after_results
  rfl
theorem r0_dst : after ops0 V (Proc.devRef .tc main_v6) = dstOf (V (Proc.devRef .tc main_arg1)) := by
  after_results
  rfl
set_option maxHeartbeats 1000000 in
theorem r0_pos : after ops0 V (Proc.devRef .tc main_v12)
    = cmpf (F := Ideal) .ogt (degOf (dstOf (V (Proc.devRef .tc main_arg1)))) (broadcastInDim Cert.KernelIdeal.S100000 ![] Cert.KernelIdeal.Facts₀.bcast_S_S100000 (constant (F := Ideal) Cert.KernelIdeal.S_ .f32 0x00000000#32)) := by
  after_results
  rfl
set_option maxHeartbeats 1000000 in
theorem r0_pow : after ops0 V (Proc.devRef .tc main_v14)
    = Host.powf (F := Ideal) (degOf (dstOf (V (Proc.devRef .tc main_arg1)))) (broadcastInDim Cert.KernelIdeal.S100000 ![] Cert.KernelIdeal.Facts₀.bcast_S_S100000 (constant (F := Ideal) Cert.KernelIdeal.S_ .f32 0xBF000000#32)) := by
  after_results
  rfl
theorem r0_zero : after ops0 V (Proc.devRef .tc main_cst_3) = constant (F := Ideal) Cert.KernelIdeal.S_ .f32 0x00000000#32 := by
  after_results

theorem r0_keep_arg0 : after ops0 V (Proc.devRef .tc main_arg0) = V (Proc.devRef .tc main_arg0) := by
  after_results

theorem r0_keep_arg2 : after ops0 V (Proc.devRef .tc main_arg2) = V (Proc.devRef .tc main_arg2) := by
  after_results

theorem r0_keep_arg3 : after ops0 V (Proc.devRef .tc main_arg3) = V (Proc.devRef .tc main_arg3) := by
  after_results

theorem r0_keep_arg4 : after ops0 V (Proc.devRef .tc main_arg4) = V (Proc.devRef .tc main_arg4) := by
  after_results

theorem r0_keep_arg5 : after ops0 V (Proc.devRef .tc main_arg5) = V (Proc.devRef .tc main_arg5) := by
  after_results

theorem r1_dinv : after ops1 V (Proc.devRef .tc main_v15)
    = select (V (Proc.devRef .tc main_v12)) (V (Proc.devRef .tc main_v14)) (broadcastInDim Cert.KernelIdeal.S100000 ![] Cert.KernelIdeal.Facts₀.bcast_S_S100000 (V (Proc.devRef .tc main_cst_3))) := by
  after_results
  rfl

theorem r1_keep_v1 : after ops1 V (Proc.devRef .tc main_v1) = V (Proc.devRef .tc main_v1) := by
  after_results

theorem r1_keep_v3 : after ops1 V (Proc.devRef .tc main_v3) = V (Proc.devRef .tc main_v3) := by
  after_results

theorem r1_keep_v5 : after ops1 V (Proc.devRef .tc main_v5) = V (Proc.devRef .tc main_v5) := by
  after_results

theorem r1_keep_v6 : after ops1 V (Proc.devRef .tc main_v6) = V (Proc.devRef .tc main_v6) := by
  after_results

theorem r1_keep_arg0 : after ops1 V (Proc.devRef .tc main_arg0) = V (Proc.devRef .tc main_arg0) := by
  after_results

theorem r1_keep_arg2 : after ops1 V (Proc.devRef .tc main_arg2) = V (Proc.devRef .tc main_arg2) := by
  after_results

theorem r1_keep_arg3 : after ops1 V (Proc.devRef .tc main_arg3) = V (Proc.devRef .tc main_arg3) := by
  after_results

theorem r1_keep_arg4 : after ops1 V (Proc.devRef .tc main_arg4) = V (Proc.devRef .tc main_arg4) := by
  after_results

theorem r1_keep_arg5 : after ops1 V (Proc.devRef .tc main_arg5) = V (Proc.devRef .tc main_arg5) := by
  after_results

theorem r2_norm : after ops2 V (Proc.devRef .tc main_v30) = normFrom (V (Proc.devRef .tc main_v15)) (V (Proc.devRef .tc main_v5)) (V (Proc.devRef .tc main_v6)) := by
  after_results_simp
  rfl

theorem r2_keep_v1 : after ops2 V (Proc.devRef .tc main_v1) = V (Proc.devRef .tc main_v1) := by
  after_results

theorem r2_keep_v3 : after ops2 V (Proc.devRef .tc main_v3) = V (Proc.devRef .tc main_v3) := by
  after_results

theorem r2_keep_v5 : after ops2 V (Proc.devRef .tc main_v5) = V (Proc.devRef .tc main_v5) := by
  after_results

theorem r2_keep_v6 : after ops2 V (Proc.devRef .tc main_v6) = V (Proc.devRef .tc main_v6) := by
  after_results

theorem r2_keep_arg0 : after ops2 V (Proc.devRef .tc main_arg0) = V (Proc.devRef .tc main_arg0) := by
  after_results

theorem r2_keep_arg2 : after ops2 V (Proc.devRef .tc main_arg2) = V (Proc.devRef .tc main_arg2) := by
  after_results

theorem r2_keep_arg3 : after ops2 V (Proc.devRef .tc main_arg3) = V (Proc.devRef .tc main_arg3) := by
  after_results

theorem r2_keep_arg4 : after ops2 V (Proc.devRef .tc main_arg4) = V (Proc.devRef .tc main_arg4) := by
  after_results

theorem r2_keep_arg5 : after ops2 V (Proc.devRef .tc main_arg5) = V (Proc.devRef .tc main_arg5) := by
  after_results

set_option maxHeartbeats 1000000 in
theorem r3_agg : after ops3 V (Proc.devRef .tc main_v47)
    = agg64 (Host.dotGeneral (F := Ideal) (φ₁ := .f32) (φ₂ := .f32) dot_S100000x128_S128x64_S100000x64_1_0_0_1_n_n none (V (Proc.devRef .tc main_arg0)) (V (Proc.devRef .tc main_arg2)))
        (V (Proc.devRef .tc main_v5)) (V (Proc.devRef .tc main_v6)) (V (Proc.devRef .tc main_v30)) (V (Proc.devRef .tc main_arg3)) := by
  after_results_simp
  rfl

theorem r3_keep_v1 : after ops3 V (Proc.devRef .tc main_v1) = V (Proc.devRef .tc main_v1) := by
  after_results

theorem r3_keep_v3 : after ops3 V (Proc.devRef .tc main_v3) = V (Proc.devRef .tc main_v3) := by
  after_results

theorem r3_keep_arg4 : after ops3 V (Proc.devRef .tc main_arg4) = V (Proc.devRef .tc main_arg4) := by
  after_results

theorem r3_keep_arg5 : after ops3 V (Proc.devRef .tc main_arg5) = V (Proc.devRef .tc main_arg5) := by
  after_results

theorem r4_relu : after ops4 V (Proc.devRef .tc main_v48) = relu64 (V (Proc.devRef .tc main_v47)) := by
  after_results
  rfl

theorem r4_keep_v1 : after ops4 V (Proc.devRef .tc main_v1) = V (Proc.devRef .tc main_v1) := by
  after_results

theorem r4_keep_v3 : after ops4 V (Proc.devRef .tc main_v3) = V (Proc.devRef .tc main_v3) := by
  after_results

theorem r4_keep_arg4 : after ops4 V (Proc.devRef .tc main_arg4) = V (Proc.devRef .tc main_arg4) := by
  after_results

theorem r4_keep_arg5 : after ops4 V (Proc.devRef .tc main_arg5) = V (Proc.devRef .tc main_arg5) := by
  after_results

theorem r5_src : after ops5 V (Proc.devRef .tc main_v50) = withLoops (V (Proc.devRef .tc main_v1)) := by
  after_results
  rfl
theorem r5_dst : after ops5 V (Proc.devRef .tc main_v51) = withLoops (V (Proc.devRef .tc main_v3)) := by
  after_results
  rfl
set_option maxHeartbeats 1000000 in
theorem r5_pos : after ops5 V (Proc.devRef .tc main_v57)
    = cmpf (F := Ideal) .ogt (degOf (withLoops (V (Proc.devRef .tc main_v3)))) (broadcastInDim Cert.KernelIdeal.S100000 ![] Cert.KernelIdeal.Facts₀.bcast_S_S100000 (constant (F := Ideal) Cert.KernelIdeal.S_ .f32 0x00000000#32)) := by
  after_results
  rfl
set_option maxHeartbeats 1000000 in
theorem r5_pow : after ops5 V (Proc.devRef .tc main_v59)
    = Host.powf (F := Ideal) (degOf (withLoops (V (Proc.devRef .tc main_v3)))) (broadcastInDim Cert.KernelIdeal.S100000 ![] Cert.KernelIdeal.Facts₀.bcast_S_S100000 (constant (F := Ideal) Cert.KernelIdeal.S_ .f32 0xBF000000#32)) := by
  after_results
  rfl
theorem r5_zero : after ops5 V (Proc.devRef .tc main_cst_14) = constant (F := Ideal) Cert.KernelIdeal.S_ .f32 0x00000000#32 := by
  after_results

theorem r5_keep_v48 : after ops5 V (Proc.devRef .tc main_v48) = V (Proc.devRef .tc main_v48) := by
  after_results

theorem r5_keep_arg4 : after ops5 V (Proc.devRef .tc main_arg4) = V (Proc.devRef .tc main_arg4) := by
  after_results

theorem r5_keep_arg5 : after ops5 V (Proc.devRef .tc main_arg5) = V (Proc.devRef .tc main_arg5) := by
  after_results

theorem r6_dinv : after ops6 V (Proc.devRef .tc main_v60)
    = select (V (Proc.devRef .tc main_v57)) (V (Proc.devRef .tc main_v59)) (broadcastInDim Cert.KernelIdeal.S100000 ![] Cert.KernelIdeal.Facts₀.bcast_S_S100000 (V (Proc.devRef .tc main_cst_14))) := by
  after_results
  rfl

theorem r6_keep_v50 : after ops6 V (Proc.devRef .tc main_v50) = V (Proc.devRef .tc main_v50) := by
  after_results

theorem r6_keep_v51 : after ops6 V (Proc.devRef .tc main_v51) = V (Proc.devRef .tc main_v51) := by
  after_results

theorem r6_keep_v48 : after ops6 V (Proc.devRef .tc main_v48) = V (Proc.devRef .tc main_v48) := by
  after_results

theorem r6_keep_arg4 : after ops6 V (Proc.devRef .tc main_arg4) = V (Proc.devRef .tc main_arg4) := by
  after_results

theorem r6_keep_arg5 : after ops6 V (Proc.devRef .tc main_arg5) = V (Proc.devRef .tc main_arg5) := by
  after_results

theorem r7_norm : after ops7 V (Proc.devRef .tc main_v75) = normFrom (V (Proc.devRef .tc main_v60)) (V (Proc.devRef .tc main_v50)) (V (Proc.devRef .tc main_v51)) := by
  after_results_simp
  rfl

theorem r7_keep_v50 : after ops7 V (Proc.devRef .tc main_v50) = V (Proc.devRef .tc main_v50) := by
  after_results

theorem r7_keep_v51 : after ops7 V (Proc.devRef .tc main_v51) = V (Proc.devRef .tc main_v51) := by
  after_results

theorem r7_keep_v48 : after ops7 V (Proc.devRef .tc main_v48) = V (Proc.devRef .tc main_v48) := by
  after_results

theorem r7_keep_arg4 : after ops7 V (Proc.devRef .tc main_arg4) = V (Proc.devRef .tc main_arg4) := by
  after_results

theorem r7_keep_arg5 : after ops7 V (Proc.devRef .tc main_arg5) = V (Proc.devRef .tc main_arg5) := by
  after_results

set_option maxHeartbeats 1000000 in
theorem r8_out : after ops8 V (Proc.devRef .tc main_v91)
    = agg1 (Host.dotGeneral (F := Ideal) (φ₁ := .f32) (φ₂ := .f32) dot_S100000x64_S64x1_S100000x1_1_0_0_1_n_n none (V (Proc.devRef .tc main_v48)) (V (Proc.devRef .tc main_arg4)))
        (V (Proc.devRef .tc main_v50)) (V (Proc.devRef .tc main_v51)) (V (Proc.devRef .tc main_v75)) (V (Proc.devRef .tc main_arg5)) := by
  after_results_simp
  rfl

/-! ## The dense transforms on the host are the plain sums -/

theorem d1_lhs_row (i : S100000x64.Idx) (q : dot_S100000x128_S128x64_S100000x64_1_0_0_1_n_n.contr.Idx) : (dot_S100000x128_S128x64_S100000x64_1_0_0_1_n_n.lhsIdx i q 0).val = (i 0).val := by
  simp [DotDims.lhsIdx, dot_S100000x128_S128x64_S100000x64_1_0_0_1_n_n]; rfl
theorem d1_lhs_col (i : S100000x64.Idx) (q : dot_S100000x128_S128x64_S100000x64_1_0_0_1_n_n.contr.Idx) : (dot_S100000x128_S128x64_S100000x64_1_0_0_1_n_n.lhsIdx i q 1).val = (q ⟨0, by decide⟩).val := by
  simp [DotDims.lhsIdx, dot_S100000x128_S128x64_S100000x64_1_0_0_1_n_n]; rfl
theorem d1_rhs_row (i : S100000x64.Idx) (q : dot_S100000x128_S128x64_S100000x64_1_0_0_1_n_n.contr.Idx) : (dot_S100000x128_S128x64_S100000x64_1_0_0_1_n_n.rhsIdx i q 0).val = (q ⟨0, by decide⟩).val := by
  simp [DotDims.rhsIdx, dot_S100000x128_S128x64_S100000x64_1_0_0_1_n_n]; rfl
theorem d1_rhs_col (i : S100000x64.Idx) (q : dot_S100000x128_S128x64_S100000x64_1_0_0_1_n_n.contr.Idx) :
    (dot_S100000x128_S128x64_S100000x64_1_0_0_1_n_n.rhsIdx i q 1).val = (i 1).val := by
  simp [DotDims.rhsIdx, dot_S100000x128_S128x64_S100000x64_1_0_0_1_n_n]; rfl

theorem d2_lhs_row (i : S100000x1.Idx) (q : dot_S100000x64_S64x1_S100000x1_1_0_0_1_n_n.contr.Idx) : (dot_S100000x64_S64x1_S100000x1_1_0_0_1_n_n.lhsIdx i q 0).val = (i 0).val := by
  simp [DotDims.lhsIdx, dot_S100000x64_S64x1_S100000x1_1_0_0_1_n_n]; rfl
theorem d2_lhs_col (i : S100000x1.Idx) (q : dot_S100000x64_S64x1_S100000x1_1_0_0_1_n_n.contr.Idx) : (dot_S100000x64_S64x1_S100000x1_1_0_0_1_n_n.lhsIdx i q 1).val = (q ⟨0, by decide⟩).val := by
  simp [DotDims.lhsIdx, dot_S100000x64_S64x1_S100000x1_1_0_0_1_n_n]; rfl
theorem d2_rhs_row (i : S100000x1.Idx) (q : dot_S100000x64_S64x1_S100000x1_1_0_0_1_n_n.contr.Idx) : (dot_S100000x64_S64x1_S100000x1_1_0_0_1_n_n.rhsIdx i q 0).val = (q ⟨0, by decide⟩).val := by
  simp [DotDims.rhsIdx, dot_S100000x64_S64x1_S100000x1_1_0_0_1_n_n]; rfl
theorem d2_rhs_col (i : S100000x1.Idx) (q : dot_S100000x64_S64x1_S100000x1_1_0_0_1_n_n.contr.Idx) :
    (dot_S100000x64_S64x1_S100000x1_1_0_0_1_n_n.rhsIdx i q 1).val = (i 1).val := by
  simp [DotDims.rhsIdx, dot_S100000x64_S64x1_S100000x1_1_0_0_1_n_n]
  have h : (i 1).val < 1 := (i 1).isLt
  omega

theorem dot1_eq (x : (⟨S100000x128, .f32⟩ : BufTy).Contents (Elt Ideal)) (w : (⟨S128x64, .f32⟩ : BufTy).Contents (Elt Ideal)) :
    Host.dotGeneral (F := Ideal) (φ₁ := .f32) (φ₂ := .f32) dot_S100000x128_S128x64_S100000x64_1_0_0_1_n_n none x w = mm1 x w := by
  funext i
  obtain ⟨p, c, rfl⟩ : ∃ (p : Fin 100000) (c : Fin 64), i = ix2 p c := ⟨i 0, i 1, eq_ix2 i⟩
  exact Cert.LibDense.dotGeneral_apply dot_S100000x128_S128x64_S100000x64_1_0_0_1_n_n rfl rfl d1_lhs_row d1_lhs_col d1_rhs_row d1_rhs_col none _ x w p c

theorem dot2_eq (x : (⟨S100000x64, .f32⟩ : BufTy).Contents (Elt Ideal)) (w : (⟨S64x1, .f32⟩ : BufTy).Contents (Elt Ideal)) :
    Host.dotGeneral (F := Ideal) (φ₁ := .f32) (φ₂ := .f32) dot_S100000x64_S64x1_S100000x1_1_0_0_1_n_n none x w = mm2 x w := by
  funext i
  obtain ⟨p, c, rfl⟩ : ∃ (p : Fin 100000) (c : Fin 1), i = ix2 p c := ⟨i 0, i 1, eq_ix2 i⟩
  exact Cert.LibDense.dotGeneral_apply dot_S100000x64_S64x1_S100000x1_1_0_0_1_n_n rfl rfl d2_lhs_row d2_lhs_col d2_rhs_row d2_rhs_col none _ x w p c

/-! ## The result, and the arguments -/

set_option maxHeartbeats 2000000 in
/-- The result buffer after the whole line: the network of the six argument buffers' contents. -/
theorem result : after (Cert.ReferenceIdeal.ValueP.ops (F := Ideal)) V (Proc.devRef .tc main_v91)
    = gcn (V (Proc.devRef .tc main_arg0)) (V (Proc.devRef .tc main_arg1)) (V (Proc.devRef .tc main_arg2)) (V (Proc.devRef .tc main_arg3)) (V (Proc.devRef .tc main_arg4)) (V (Proc.devRef .tc main_arg5)) := by
  rw [after_ops]
  rw [r8_out]
  rw [r7_norm, r7_keep_v50, r7_keep_v51, r7_keep_v48, r7_keep_arg4, r7_keep_arg5]
  rw [r6_dinv, r6_keep_v50, r6_keep_v51, r6_keep_v48, r6_keep_arg4, r6_keep_arg5]
  rw [r5_pos, r5_pow, r5_zero, r5_src, r5_dst, r5_keep_v48, r5_keep_arg4, r5_keep_arg5]
  rw [r4_relu, r4_keep_v1, r4_keep_v3, r4_keep_arg4, r4_keep_arg5]
  rw [r3_agg, r3_keep_v1, r3_keep_v3, r3_keep_arg4, r3_keep_arg5]
  rw [r2_norm, r2_keep_v1, r2_keep_v3, r2_keep_v5, r2_keep_v6, r2_keep_arg0, r2_keep_arg2, r2_keep_arg3, r2_keep_arg4, r2_keep_arg5]
  rw [r1_dinv, r1_keep_v1, r1_keep_v3, r1_keep_v5, r1_keep_v6, r1_keep_arg0, r1_keep_arg2, r1_keep_arg3, r1_keep_arg4, r1_keep_arg5]
  rw [r0_pos, r0_pow, r0_zero, r0_row0, r0_row1, r0_src, r0_dst, r0_keep_arg0, r0_keep_arg2, r0_keep_arg3, r0_keep_arg4, r0_keep_arg5]
  rw [dot1_eq, dot2_eq]
  rfl

theorem all_keep_arg0 (W : Valuation τ sig (Elt Ideal)) :
    after (Cert.ReferenceIdeal.ValueP.ops (F := Ideal)) W (Proc.devRef .tc main_arg0) = W (Proc.devRef .tc main_arg0) :=
  after_of_forall_not_mem (b := Proc.devRef .tc main_arg0) _ _ (List.forall_iff_forall_mem.mp (by
    simp only [Cert.ReferenceIdeal.ValueP.ops, List.Forall, nullary_writes, unary_writes, binary_writes, ternary_writes, quaternary_writes, reshape_writes, binaryIndexed_writes, Finset.mem_singleton]
    repeat' apply And.intro
    all_goals exact devRef_ne_of_ne (by decide)))

theorem all_keep_arg1 (W : Valuation τ sig (Elt Ideal)) :
    after (Cert.ReferenceIdeal.ValueP.ops (F := Ideal)) W (Proc.devRef .tc main_arg1) = W (Proc.devRef .tc main_arg1) :=
  after_of_forall_not_mem (b := Proc.devRef .tc main_arg1) _ _ (List.forall_iff_forall_mem.mp (by
    simp only [Cert.ReferenceIdeal.ValueP.ops, List.Forall, nullary_writes, unary_writes, binary_writes, ternary_writes, quaternary_writes, reshape_writes, binaryIndexed_writes, Finset.mem_singleton]
    repeat' apply And.intro
    all_goals exact devRef_ne_of_ne (by decide)))

theorem all_keep_arg2 (W : Valuation τ sig (Elt Ideal)) :
    after (Cert.ReferenceIdeal.ValueP.ops (F := Ideal)) W (Proc.devRef .tc main_arg2) = W (Proc.devRef .tc main_arg2) :=
  after_of_forall_not_mem (b := Proc.devRef .tc main_arg2) _ _ (List.forall_iff_forall_mem.mp (by
    simp only [Cert.ReferenceIdeal.ValueP.ops, List.Forall, nullary_writes, unary_writes, binary_writes, ternary_writes, quaternary_writes, reshape_writes, binaryIndexed_writes, Finset.mem_singleton]
    repeat' apply And.intro
    all_goals exact devRef_ne_of_ne (by decide)))

theorem all_keep_arg3 (W : Valuation τ sig (Elt Ideal)) :
    after (Cert.ReferenceIdeal.ValueP.ops (F := Ideal)) W (Proc.devRef .tc main_arg3) = W (Proc.devRef .tc main_arg3) :=
  after_of_forall_not_mem (b := Proc.devRef .tc main_arg3) _ _ (List.forall_iff_forall_mem.mp (by
    simp only [Cert.ReferenceIdeal.ValueP.ops, List.Forall, nullary_writes, unary_writes, binary_writes, ternary_writes, quaternary_writes, reshape_writes, binaryIndexed_writes, Finset.mem_singleton]
    repeat' apply And.intro
    all_goals exact devRef_ne_of_ne (by decide)))

theorem all_keep_arg4 (W : Valuation τ sig (Elt Ideal)) :
    after (Cert.ReferenceIdeal.ValueP.ops (F := Ideal)) W (Proc.devRef .tc main_arg4) = W (Proc.devRef .tc main_arg4) :=
  after_of_forall_not_mem (b := Proc.devRef .tc main_arg4) _ _ (List.forall_iff_forall_mem.mp (by
    simp only [Cert.ReferenceIdeal.ValueP.ops, List.Forall, nullary_writes, unary_writes, binary_writes, ternary_writes, quaternary_writes, reshape_writes, binaryIndexed_writes, Finset.mem_singleton]
    repeat' apply And.intro
    all_goals exact devRef_ne_of_ne (by decide)))

theorem all_keep_arg5 (W : Valuation τ sig (Elt Ideal)) :
    after (Cert.ReferenceIdeal.ValueP.ops (F := Ideal)) W (Proc.devRef .tc main_arg5) = W (Proc.devRef .tc main_arg5) :=
  after_of_forall_not_mem (b := Proc.devRef .tc main_arg5) _ _ (List.forall_iff_forall_mem.mp (by
    simp only [Cert.ReferenceIdeal.ValueP.ops, List.Forall, nullary_writes, unary_writes, binary_writes, ternary_writes, quaternary_writes, reshape_writes, binaryIndexed_writes, Finset.mem_singleton]
    repeat' apply And.intro
    all_goals exact devRef_ne_of_ne (by decide)))

end Cert.ReferenceIdeal.RefValue

end
-- ==== Proof.lean ====
/-
  A two-layer graph convolution with self-loops and symmetric normalization, on 100000 nodes and 3200000 edges:

      out = Â · relu(Â · (x · W1) + b1) · W2 + b2,     Â = D^(-1/2) (A + I) D^(-1/2).

  The kernel computes the normalization weights once, runs the two dense products x · W1 and h · W2 as pipelined
  matrix-unit regions over ten row blocks (operands rounded to bf16, accumulation in f32), and does the gathers and
  scatter-adds of the aggregation on the host.  The reference is one line of host operations: it computes the weights
  twice (once per layer, from the same edge list) and the dense products by `dot_general`.

  At the exact extended reals both are the same function `Cert.Gcn.gcn` of the six arguments: rounding is the identity, a
  matrix-unit product into a zero accumulator and a `dot_general` are both the sum over the contracted axis, the ten
  blocks tile the product's rows, and every other operation is literally the same in the two programs.  No law that
  needs finite inputs is used: the precondition is never opened.

  The three frames: the kernel's (at the word level and idealized) are its generated frame certificates; the
  reference's is its run with the result dropped, no operation writing an argument.  The idealization rewrote no
  operation, so the sanctioned-idealization conjunct is `True`.
-/
import proofs.«166392_j25804163514759_2_alg».proof.Defs
import proofs.«166392_j25804163514759_2_alg».proof.Proof.Gen.Kernel
import proofs.«166392_j25804163514759_2_alg».proof.Proof.Gen.Kernel.Skeleton
import proofs.«166392_j25804163514759_2_alg».proof.Proof.Gen.Kernel.Launch
import proofs.«166392_j25804163514759_2_alg».proof.Proof.Gen.Kernel.Points
import proofs.«166392_j25804163514759_2_alg».proof.Proof.Gen.Kernel.Frame
import proofs.«166392_j25804163514759_2_alg».proof.Proof.Gen.KernelIdeal
import proofs.«166392_j25804163514759_2_alg».proof.Proof.Gen.KernelIdeal.Skeleton
import proofs.«166392_j25804163514759_2_alg».proof.Proof.Gen.KernelIdeal.Launch
import proofs.«166392_j25804163514759_2_alg».proof.Proof.Gen.KernelIdeal.Points
import proofs.«166392_j25804163514759_2_alg».proof.Proof.Gen.KernelIdeal.Frame
import proofs.«166392_j25804163514759_2_alg».proof.Proof.Gen.ReferenceIdeal
import proofs.«166392_j25804163514759_2_alg».proof.Proof.Gen.Pre_finite_inputs
import proofs.«166392_j25804163514759_2_alg».proof.Proof.KRun
import proofs.«166392_j25804163514759_2_alg».proof.Proof.KValue
import proofs.«166392_j25804163514759_2_alg».proof.Proof.RefRunGen
import proofs.«166392_j25804163514759_2_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference terminates without a fault and no operation of its line writes an argument buffer. -/
theorem frame_referenceIdeal : Cert.frame_ReferenceIdeal := fun m ρ _ =>
  (θ_run Cert.ReferenceIdeal.defs _ _).mono (fun r h c =>
      ⟨(h c Cert.ReferenceIdeal.main_arg0).trans (Cert.ReferenceIdeal.RefValue.all_keep_arg0 _),
       (h c Cert.ReferenceIdeal.main_arg1).trans (Cert.ReferenceIdeal.RefValue.all_keep_arg1 _),
       (h c Cert.ReferenceIdeal.main_arg2).trans (Cert.ReferenceIdeal.RefValue.all_keep_arg2 _),
       (h c Cert.ReferenceIdeal.main_arg3).trans (Cert.ReferenceIdeal.RefValue.all_keep_arg3 _),
       (h c Cert.ReferenceIdeal.main_arg4).trans (Cert.ReferenceIdeal.RefValue.all_keep_arg4 _),
       (h c Cert.ReferenceIdeal.main_arg5).trans (Cert.ReferenceIdeal.RefValue.all_keep_arg5 _)⟩)
    (Cert.ReferenceIdeal.ValueP.run_fold (F := Ideal) m ρ)

theorem preserves : Cert.preserves_Kernel_KernelIdeal := trivial

/-- From memories that agree on the six arguments, both programs end with the result buffer at the network of those
    arguments, and with the arguments unchanged. -/
theorem algebraic : Cert.algebraic_KernelIdeal_ReferenceIdeal := by
  intro m ρ m' ρ' _ hagree
  refine ⟨fun c => Cert.Gcn.gcn
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.KValue.result m ρ c), (h c).2⟩)
      (Cert.KernelIdeal.KRun.run_named (F := Ideal) m ρ)
  · refine (θ_run Cert.ReferenceIdeal.defs _ _).mono (fun r h c => ⟨?_,
       (h c Cert.ReferenceIdeal.main_arg0).trans (Cert.ReferenceIdeal.RefValue.all_keep_arg0 _),
       (h c Cert.ReferenceIdeal.main_arg1).trans (Cert.ReferenceIdeal.RefValue.all_keep_arg1 _),
       (h c Cert.ReferenceIdeal.main_arg2).trans (Cert.ReferenceIdeal.RefValue.all_keep_arg2 _),
       (h c Cert.ReferenceIdeal.main_arg3).trans (Cert.ReferenceIdeal.RefValue.all_keep_arg3 _),
       (h c Cert.ReferenceIdeal.main_arg4).trans (Cert.ReferenceIdeal.RefValue.all_keep_arg4 _),
       (h c Cert.ReferenceIdeal.main_arg5).trans (Cert.ReferenceIdeal.RefValue.all_keep_arg5 _)⟩)
      (Cert.ReferenceIdeal.ValueP.run_fold (F := Ideal) m' ρ')
    refine (h c Cert.ReferenceIdeal.main_v91).trans ((Cert.ReferenceIdeal.RefValue.result _).trans ?_)
    obtain ⟨a0, a1, a2, a3, a4, a5⟩ := hagree c
    show Cert.Gcn.gcn
      (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4))
      (m' ((c.tc : Thread Cert.ReferenceIdeal.nD Cert.ReferenceIdeal.τ).loc Cert.ReferenceIdeal.main_arg5)) = _
    rw [a0, a1, a2, a3, a4, a5]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
